-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S128x128 .f32) (main_arg9 : FVec F S128 .f32) (main_arg10 : FVec F S128x128 .f32) (main_arg11 : FVec F S1x128 .f32) (main_arg12 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S1x128 .f32 := Host.absf main_arg11
  let main_cst_18 : FVec F S_ .f32 := constant S_ .f32 0x7F800000#32
  let main_v50 : FVec F S1x128 .f32 := broadcastInDim S1x128 ![] bcast_S_S1x128 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S1x128 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S1x128 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S5000x1 : Shape := ⟨2, ![5000, 1]⟩
abbrev S128x1 : Shape := ⟨2, ![128, 1]⟩
abbrev S1x1 : Shape := ⟨2, ![1, 1]⟩

abbrev nBuf : Space → Nat
  | .hbm => 83
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x128, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S128x128, .f32⟩
  | .hbm, ⟨44, _⟩ => ⟨S128x128, .f32⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S128x128, .f32⟩
  | .hbm, ⟨61, _⟩ => ⟨S128x128, .f32⟩
  | .hbm, ⟨62, _⟩ => ⟨S1x128, .f32⟩
  | .hbm, ⟨63, _⟩ => ⟨S50000x128, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .f32⟩
  | .hbm, ⟨73, _⟩ => ⟨S_, .f32⟩
  | .hbm, ⟨74, _⟩ => ⟨S50000x128, .f32⟩
  | .hbm, ⟨75, _⟩ => ⟨S800000x1, .i32⟩
  | .hbm, ⟨76, _⟩ => ⟨S50000x128, .f32⟩
  | .hbm, ⟨77, _⟩ => ⟨S128x128, .f32⟩
  | .hbm, ⟨78, _⟩ => ⟨S128x128, .f32⟩
  | .hbm, ⟨79, _⟩ => ⟨S128x1, .f32⟩
  | .hbm, ⟨80, _⟩ => ⟨S1x128, .f32⟩
  | .hbm, ⟨81, _⟩ => ⟨S1x1, .f32⟩
  | .hbm, ⟨82, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S128x1, .f32⟩
  | .local _ .vmem, ⟨32, _⟩ => ⟨S1x1, .f32⟩
  | .local _ .vmem, ⟨33, _⟩ => ⟨S5000x1, .f32⟩
  | .local _ .vmem, ⟨34, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg8_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem8_1 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S1x128_S128x1_1_0 : S1x128.Transposes [1, 0] S128x1
  shapeCasts_S1_S1x1 : S1.ShapeCasts S1x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x1.size a ≤ S128x1.size a
  hwx2_6 : ∀ i : grid2.Coords, EltTy.bits .f32 = 32 ∨ (Rect.block (s := S128x1) S128x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x1.size a ≤ S50000x1.size a
  hwx2_8 : ∀ i : grid2.Coords, EltTy.bits .f32 = 32 ∨ (Rect.block (s := S50000x1) S5000x1.size (cc2_transform_8 i) (hinb2_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v51) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v53) S128x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v55) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v56) S5000x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x1 : Shape := ⟨2, ![128, 1]⟩
abbrev S1x1 : Shape := ⟨2, ![1, 1]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S1x128, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S_, .f32⟩
  | 31 => ⟨S800000, .f32⟩
  | 32 => ⟨S_, .f32⟩
  | 33 => ⟨S50000, .f32⟩
  | 34 => ⟨S800000x1, .i32⟩
  | 35 => ⟨S50000, .f32⟩
  | 36 => ⟨S_, .f32⟩
  | 37 => ⟨S50000, .f32⟩
  | 38 => ⟨S50000, .f32⟩
  | 39 => ⟨S50000x1, .f32⟩
  | 40 => ⟨S50000x128, .f32⟩
  | 41 => ⟨S50000x128, .f32⟩
  | 42 => ⟨S128x128, .f32⟩
  | 43 => ⟨S50000x128, .f32⟩
  | 44 => ⟨S1x128, .f32⟩
  | 45 => ⟨S50000x128, .f32⟩
  | 46 => ⟨S50000x128, .f32⟩
  | 47 => ⟨S128x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S_, .f32⟩
  | 67 => ⟨S800000, .f32⟩
  | 68 => ⟨S_, .f32⟩
  | 69 => ⟨S50000, .f32⟩
  | 70 => ⟨S800000x1, .i32⟩
  | 71 => ⟨S50000, .f32⟩
  | 72 => ⟨S_, .f32⟩
  | 73 => ⟨S50000, .f32⟩
  | 74 => ⟨S50000, .f32⟩
  | 75 => ⟨S50000x1, .f32⟩
  | 76 => ⟨S50000x128, .f32⟩
  | 77 => ⟨S50000x128, .f32⟩
  | 78 => ⟨S128x128, .f32⟩
  | 79 => ⟨S50000x128, .f32⟩
  | 80 => ⟨S1x128, .f32⟩
  | 81 => ⟨S50000x128, .f32⟩
  | 82 => ⟨S50000x128, .f32⟩
  | 83 => ⟨S128x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x128, .f32⟩
  | 98 => ⟨S_, .f32⟩
  | 99 => ⟨S50000x128, .f32⟩
  | 100 => ⟨S800000x1, .i32⟩
  | 101 => ⟨S50000x128, .f32⟩
  | 102 => ⟨S_, .f32⟩
  | 103 => ⟨S800000, .f32⟩
  | 104 => ⟨S_, .f32⟩
  | 105 => ⟨S50000, .f32⟩
  | 106 => ⟨S800000x1, .i32⟩
  | 107 => ⟨S50000, .f32⟩
  | 108 => ⟨S_, .f32⟩
  | 109 => ⟨S50000, .f32⟩
  | 110 => ⟨S50000, .f32⟩
  | 111 => ⟨S50000x1, .f32⟩
  | 112 => ⟨S50000x128, .f32⟩
  | 113 => ⟨S50000x128, .f32⟩
  | 114 => ⟨S128x128, .f32⟩
  | 115 => ⟨S50000x128, .f32⟩
  | 116 => ⟨S1x128, .f32⟩
  | 117 => ⟨S50000x128, .f32⟩
  | 118 => ⟨S50000x128, .f32⟩
  | 119 => ⟨S128x128, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S128x1, .f32⟩
  | 126 => ⟨S50000x1, .f32⟩
  | 127 => ⟨S1x1, .f32⟩
  | _ => ⟨S50000x128, .f32⟩

abbrev hbmTy0_1 (i : Nat) : BufTy := match i % 128 with
  | 0 => ⟨S50000x1, .f32⟩
  | 1 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_c_4 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call1_cst : Ref sig .tc := ⟨.hbm, 86, rfl⟩
abbrev main_call1_v0 : Ref sig .tc := ⟨.hbm, 87, rfl⟩
abbrev main_v59 : Ref sig .tc := ⟨.hbm, 88, rfl⟩
abbrev main_c_10 : Ref sig .tc := ⟨.hbm, 89, rfl⟩
abbrev main_v60 : Ref sig .tc := ⟨.hbm, 90, rfl⟩
abbrev main_v61 : Ref sig .tc := ⟨.hbm, 91, rfl⟩
abbrev main_c_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_12 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_13 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_15 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call2_cst : Ref sig .tc := ⟨.hbm, 122, rfl⟩
abbrev main_call2_v0 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S1x128_S128x1_1_0 : S1x128.Transposes [1, 0] S128x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  The idealized kernel's run, with its result named.

  @main is three stretches of host operations, each followed by one tiled region. The buffers' contents at the six
  segment boundaries are a fold from the launch memory: a stretch applies its operations, a region replaces each of
  its arrays by what its write-backs leave. Every weakly fair execution terminates, and in the final state every
  unscoped buffer holds the last boundary's contents; read at the arguments this is the frame, read at the result
  buffer it names the result: the third region's output array after its write-backs.
-/
import proofs.«109179_j2534030704731_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and the argument arrays end as launched. -/
theorem run_main : θ_run defs (onTc (τ := τ) (main (F := F))) ⟨m, fun _ => 0, ρ⟩ (fun r => ∀ c : Dev nD,
      r.2.mem ((c.tc : Thread nD τ).loc main_v56) = W6 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v56 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.Whole

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.LibDenseRows.lean ====
/-
  Dense stages of a graph network read entry by entry, at exact (extended real) values.

    mm X W       entry (p, q) = Σ_k X[p, k] · W[k, q]        the matrix product
    act A b      entry (p, k) = max(A[p, k] + b[k], 0)        a bias laid along every row, then the rectifier
    addRow A b   entry (p, k) = A[p, k] + b[k]                a bias laid along every row

  A tiled body multiplies one block of rows by a whole weight matrix on the matrix unit, its operands narrowed to half
  precision first (at exact values the narrowing changes nothing) and its accumulator zero; a host program takes the
  whole product by a dot product. Both are read here at one entry as the same sum over the contracted index. The bias
  reaches the tiled body as a one-row matrix broadcast down the rows and the host program as a vector broadcast twice.
-/
import Idealize.ShloMosaic.PureOps.Ideal.Laws
import Idealize.ShloMosaic.Lib.ValueIdx
import Idealize.ShloMosaic.Lib.ValueLayout
import Idealize.ShloMosaic.Lib.Pipeline.Value
import proofs.«109179_j2534030704731_2_alg».proof.Proof.LibPlainContract
import proofs.«109179_j2534030704731_2_alg».proof.Proof.LibLreluRows

noncomputable section

namespace Cert.Dense

open Idealize.ShloMosaic Idealize.ShloMosaic.ValueIdx

variable {N K C : Nat}

/-- An N-by-K array of extended reals. -/
abbrev Mat (N K : Nat) : Type := (⟨2, ![N, K]⟩ : Shape).Idx → EReal
/-- A vector of K extended reals. -/
abbrev Row (K : Nat) : Type := (⟨1, ![K]⟩ : Shape).Idx → EReal

/-- The row and the column of an entry. -/
abbrev rowOf (i : (⟨2, ![N, K]⟩ : Shape).Idx) : Fin N := ⟨(i 0).val, idx2_lt0 i⟩
abbrev colOf (i : (⟨2, ![N, K]⟩ : Shape).Idx) : Fin K := ⟨(i 1).val, idx2_lt1 i⟩

/-- The matrix product. -/
def mm (X : Mat N K) (W : Mat K C) : Mat N C := fun i => ∑ k : Fin K, X (ix2 (rowOf i) k) * W (ix2 k (colOf i))
/-- A bias along every row, then the rectifier. -/
def act (A : Mat N K) (b : Row K) : Mat N K := fun i => max (A i + b (ix1 (colOf i))) 0
/-- A bias along every row. -/
def addRow (A : Mat N K) (b : Row K) : Mat N K := fun i => A i + b (ix1 (colOf i))

/-- A one-row bias along every row, then the rectifier. -/
def actRow (A : Mat N K) (b : Mat 1 K) : Mat N K := fun i => max (A i + b (ix2 (0 : Fin 1) (colOf i))) 0
/-- A one-row bias along every row. -/
def addRowRow (A : Mat N K) (b : Mat 1 K) : Mat N K := fun i => A i + b (ix2 (0 : Fin 1) (colOf i))

/-- The one-row bias that is a vector cast to a one-row matrix acts as the vector. -/
theorem actRow_cast (A : Mat N K) (v : Row K) (h : (⟨1, ![K]⟩ : Shape).ShapeCasts ⟨2, ![1, K]⟩) :
    actRow A (shapeCast ⟨2, ![1, K]⟩ v h) = act A v := by
  funext i
  exact congrArg (fun z => max (A i + z) 0) (Cert.LibLreluRows.rowCast_apply h v (colOf i))
theorem addRowRow_cast (A : Mat N K) (v : Row K) (h : (⟨1, ![K]⟩ : Shape).ShapeCasts ⟨2, ![1, K]⟩) :
    addRowRow A (shapeCast ⟨2, ![1, K]⟩ v h) = addRow A v := by
  funext i
  exact congrArg (fun z => A i + z) (Cert.LibLreluRows.rowCast_apply h v (colOf i))

theorem mm_apply (X : Mat N K) (W : Mat K C) (p : Fin N) (q : Fin C) :
    mm X W (ix2 p q) = ∑ k : Fin K, X (ix2 p k) * W (ix2 k q) := rfl
theorem act_apply (A : Mat N K) (b : Row K) (p : Fin N) (k : Fin K) :
    act A b (ix2 p k) = max (A (ix2 p k) + b (ix1 k)) 0 := rfl
theorem addRow_apply (A : Mat N K) (b : Row K) (p : Fin N) (k : Fin K) :
    addRow A b (ix2 p k) = A (ix2 p k) + b (ix1 k) := rfl
theorem actRow_apply (A : Mat N K) (b : Mat 1 K) (p : Fin N) (k : Fin K) :
    actRow A b (ix2 p k) = max (A (ix2 p k) + b (ix2 (0 : Fin 1) k)) 0 := rfl
theorem addRowRow_apply (A : Mat N K) (b : Mat 1 K) (p : Fin N) (k : Fin K) :
    addRowRow A b (ix2 p k) = A (ix2 p k) + b (ix2 (0 : Fin 1) k) := rfl

/-! ## The tiled body's stages at one entry -/

/-- The matrix unit's product of two narrowed operands into the zero accumulator is the plain sum. -/
theorem tileProduct_apply (M K C : Nat) (prec : Option ContractPrecision)
    (h0 h1 : FTy.bf16.bits < FTy.f32.bits)
    (x : FVec Ideal ⟨2, ![M, K]⟩ .f32) (w : FVec Ideal ⟨2, ![K, C]⟩ .f32) (p : Fin M) (q : Fin C) :
    matmul (DotDims.plain M K C) prec (truncf .bf16 x h0) (truncf .bf16 w h1)
        (constant ⟨2, ![M, C]⟩ .f32 0x00000000#32) (ix2 p q)
      = ∑ k : Fin K, x (ix2 p k) * w (ix2 k q) :=
  Cert.LibPlainContract.matmul_plain_apply M K C prec (truncf .bf16 x h0) (truncf .bf16 w h1) p q

/-- A block of rows plus a one-row bias broadcast down the rows, rectified against a splat zero, at one entry. -/
theorem tileAct_apply (M K : Nat)
    (hs0 : (⟨2, ![M, K]⟩ : Shape).ShapeCasts ⟨2, ![M, K]⟩) (hs1 : (⟨2, ![1, K]⟩ : Shape).ShapeCasts ⟨2, ![1, K]⟩)
    (hb : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    maximumf (addf (shapeCast ⟨2, ![M, K]⟩ x hs0) (broadcastTo ⟨2, ![M, K]⟩ (shapeCast ⟨2, ![1, K]⟩ b hs1) hb))
        (broadcast ⟨2, ![M, K]⟩ (Scalar.ofBits (F := Ideal) .f32 0x00000000#32)) (ix2 p k)
      = max (x (ix2 p k) + b (ix2 (0 : Fin 1) k)) 0 := by
  show max (shapeCast ⟨2, ![M, K]⟩ x hs0 (ix2 p k) + broadcastTo ⟨2, ![M, K]⟩ (shapeCast ⟨2, ![1, K]⟩ b hs1) hb (ix2 p k))
      (Ideal.ofBits .f32 0x00000000#32) = _
  rw [shapeCast_self, Cert.LibLreluRows.rowDown_apply, Ideal.ofBits_zero_f32]

/-- A block of rows plus a one-row bias broadcast down the rows (no rectifier), at one entry. -/
theorem tileAddRow_apply (M K : Nat)
    (hs1 : (⟨2, ![1, K]⟩ : Shape).ShapeCasts ⟨2, ![1, K]⟩) (hb : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    addf x (broadcastTo ⟨2, ![M, K]⟩ (shapeCast ⟨2, ![1, K]⟩ b hs1) hb) (ix2 p k)
      = x (ix2 p k) + b (ix2 (0 : Fin 1) k) := by
  show x (ix2 p k) + broadcastTo ⟨2, ![M, K]⟩ (shapeCast ⟨2, ![1, K]⟩ b hs1) hb (ix2 p k) = _
  rw [Cert.LibLreluRows.rowDown_apply]

/-- The rectifier against a splat zero, at one entry. -/
theorem tileRelu_apply (M K : Nat) (x : FVec Ideal ⟨2, ![M, K]⟩ .f32) (i : (⟨2, ![M, K]⟩ : Shape).Idx) :
    maximumf x (broadcast ⟨2, ![M, K]⟩ (Scalar.ofBits (F := Ideal) .f32 0x00000000#32)) i = max (x i) 0 := by
  show max (x i) (Ideal.ofBits .f32 0x00000000#32) = _
  rw [Ideal.ofBits_zero_f32]

/-! ## The host program's stages at one entry -/

/-- The host's dot product of two matrices is the plain sum. -/
theorem hostProduct_apply (M K C : Nat) (prec : Option ContractPrecision)
    (x : FVec Ideal ⟨2, ![M, K]⟩ .f32) (w : FVec Ideal ⟨2, ![K, C]⟩ .f32) (p : Fin M) (q : Fin C) :
    Host.dotGeneral (DotDims.plain M K C) prec x w (ix2 p q) = ∑ k : Fin K, x (ix2 p k) * w (ix2 k q) := by
  simp only [Host.dotGeneral]
  exact Cert.LibPlainContract.dotGeneral_plain_apply M K C prec _ x w p q

/-- A bias vector broadcast to a one-row matrix and down the rows, added, at one entry. -/
theorem hostAddRow_apply (M K : Nat) (h1 : (⟨1, ![K]⟩ : Shape).BroadcastsInDim ⟨2, ![1, K]⟩ ![1])
    (h2 : (⟨2, ![1, K]⟩ : Shape).BroadcastsInDim ⟨2, ![M, K]⟩ ![0, 1])
    (x : FVec Ideal ⟨2, ![M, K]⟩ .f32) (b : FVec Ideal ⟨1, ![K]⟩ .f32) (p : Fin M) (k : Fin K) :
    addf x (broadcastInDim ⟨2, ![M, K]⟩ ![0, 1] h2 (broadcastInDim ⟨2, ![1, K]⟩ ![1] h1 b)) (ix2 p k)
      = x (ix2 p k) + b (ix1 k) := by
  show x (ix2 p k) + broadcastInDim ⟨2, ![M, K]⟩ ![0, 1] h2 (broadcastInDim ⟨2, ![1, K]⟩ ![1] h1 b) (ix2 p k) = _
  rw [Cert.LibLreluRows.biasRows_apply]

/-- The rectifier against a rank-0 zero broadcast over the array, at one entry. -/
theorem hostRelu_apply (M K : Nat) (h : (⟨0, ![]⟩ : Shape).BroadcastsInDim ⟨2, ![M, K]⟩ ![])
    (x : FVec Ideal ⟨2, ![M, K]⟩ .f32) (i : (⟨2, ![M, K]⟩ : Shape).Idx) :
    maximumf x (broadcastInDim ⟨2, ![M, K]⟩ ![] h (constant (F := Ideal) ⟨0, ![]⟩ .f32 0x00000000#32)) i = max (x i) 0 := by
  show max (x i) (Ideal.ofBits .f32 0x00000000#32) = _
  rw [Ideal.ofBits_zero_f32]

end Cert.Dense

end
-- ==== Proof.LibSageLayer.lean ====
/-
  One mean-aggregating graph convolution layer on the extended reals, in the two arrangements the two programs use,
  and the law that joins them.

  Write s for the neighbour sums (an N-by-K array), h for the nodes' own features, c for the clamped degree of each
  node. The reference divides each neighbour sum by the degree, projects it, adds the bias and then the node's own
  projection:  max(((Σ_k (s[n,k] / c[n]) · wl[k,q]) + b[q]) + Σ_k h[n,k] · wr[k,q], 0).
  The tiled body multiplies by the reciprocal column inv[n] = 1 / c[n], adds the two projections first and the bias
  last:        max(((Σ_k (s[n,k] · inv[n]) · wl[k,q]) + Σ_k h[n,k] · wr[k,q]) + b[q], 0).
  The division of the extended reals is x · y⁻¹ off y = 0, so s · (1 / c) = s / c for every extended real s as soon
  as c ≠ 0, and c = max(count, 1) is never 0. The three summands are regrouped by commutativity and associativity of
  the addition alone. No summand is asked to be finite.
-/
import Idealize.ShloMosaic.PureOps.Ideal.Laws
import Idealize.ShloMosaic.Lib.ValueIdx
import proofs.«109179_j2534030704731_2_alg».proof.Proof.LibDenseRows

noncomputable section

namespace Cert.Sage

open Idealize.ShloMosaic Idealize.ShloMosaic.ValueIdx Cert.Dense

variable {N K C : Nat}

/-- Multiplying by the reciprocal of a nonzero extended real is dividing by it, for every extended real numerator. -/
theorem mul_recip (s c : EReal) (hc : c ≠ 0) : s * Ideal.div 1 c = Ideal.div s c := by
  unfold Ideal.div
  rw [if_neg hc, if_neg hc, one_mul]

/-- A count clamped below by one is not zero, whatever the count. -/
theorem clamp_ne_zero (x : EReal) : max x 1 ≠ 0 := by
  have h : (0 : EReal) < max x 1 := lt_of_lt_of_le zero_lt_one (le_max_right x 1)
  exact ne_of_gt h

/-- One layer as the reference states it. -/
def layerRef (s h : Mat N K) (c : Row N) (wl wr : Mat K C) (b : Row C) : Mat N C := fun i =>
  max (((∑ k : Fin K, Ideal.div (s (ix2 (rowOf i) k)) (c (ix1 (rowOf i))) * wl (ix2 k (colOf i))) + b (ix1 (colOf i)))
        + ∑ k : Fin K, h (ix2 (rowOf i) k) * wr (ix2 k (colOf i))) 0

/-- One layer as the tiled body computes it, from the reciprocal column and the one-row bias. -/
def layerTile (s h : Mat N K) (inv : Mat N 1) (wl wr : Mat K C) (b : Mat 1 C) : Mat N C := fun i =>
  max (((∑ k : Fin K, (s (ix2 (rowOf i) k) * inv (ix2 (rowOf i) (0 : Fin 1))) * wl (ix2 k (colOf i)))
        + ∑ k : Fin K, h (ix2 (rowOf i) k) * wr (ix2 k (colOf i))) + b (ix2 (0 : Fin 1) (colOf i))) 0

theorem layerRef_apply (s h : Mat N K) (c : Row N) (wl wr : Mat K C) (b : Row C) (p : Fin N) (q : Fin C) :
    layerRef s h c wl wr b (ix2 p q)
      = max (((∑ k : Fin K, Ideal.div (s (ix2 p k)) (c (ix1 p)) * wl (ix2 k q)) + b (ix1 q))
          + ∑ k : Fin K, h (ix2 p k) * wr (ix2 k q)) 0 := rfl

theorem layerTile_apply (s h : Mat N K) (inv : Mat N 1) (wl wr : Mat K C) (b : Mat 1 C) (p : Fin N) (q : Fin C) :
    layerTile s h inv wl wr b (ix2 p q)
      = max (((∑ k : Fin K, (s (ix2 p k) * inv (ix2 p (0 : Fin 1))) * wl (ix2 k q))
          + ∑ k : Fin K, h (ix2 p k) * wr (ix2 k q)) + b (ix2 (0 : Fin 1) q)) 0 := rfl

/-- The two arrangements of a layer are one array, when the reciprocal column is 1 / c of a nowhere-zero c and the
    one-row bias is the bias vector. -/
theorem layerTile_eq_layerRef (s h : Mat N K) (c : Row N) (inv : Mat N 1) (wl wr : Mat K C) (b : Row C) (b1 : Mat 1 C)
    (hc : ∀ p : Fin N, c (ix1 p) ≠ 0) (hinv : ∀ p : Fin N, inv (ix2 p (0 : Fin 1)) = Ideal.div 1 (c (ix1 p)))
    (hb : ∀ q : Fin C, b1 (ix2 (0 : Fin 1) q) = b (ix1 q)) :
    layerTile s h inv wl wr b1 = layerRef s h c wl wr b := by
  funext i
  unfold layerTile layerRef
  rw [hinv, hb, add_right_comm]
  refine congrArg (fun z => max ((z + b (ix1 (colOf i))) + ∑ k : Fin K, h (ix2 (rowOf i) k) * wr (ix2 k (colOf i))) 0) ?_
  refine Finset.sum_congr rfl fun k _ => ?_
  rw [mul_recip _ _ (hc _)]

/-- The linear head on the rectified features: a projection to one column plus a bias. -/
def headRef (a : Mat N K) (wf : Mat K C) (b : Row C) : Mat N C := fun i =>
  (∑ k : Fin K, a (ix2 (rowOf i) k) * wf (ix2 k (colOf i))) + b (ix1 (colOf i))

theorem headRef_apply (a : Mat N K) (wf : Mat K C) (b : Row C) (p : Fin N) (q : Fin C) :
    headRef a wf b (ix2 p q) = (∑ k : Fin K, a (ix2 p k) * wf (ix2 k q)) + b (ix1 q) := rfl

/-- The head as the tiled body computes it, with a one-row bias. -/
def headTile (a : Mat N K) (wf : Mat K C) (b : Mat 1 C) : Mat N C := fun i =>
  (∑ k : Fin K, a (ix2 (rowOf i) k) * wf (ix2 k (colOf i))) + b (ix2 (0 : Fin 1) (colOf i))

theorem headTile_apply (a : Mat N K) (wf : Mat K C) (b : Mat 1 C) (p : Fin N) (q : Fin C) :
    headTile a wf b (ix2 p q) = (∑ k : Fin K, a (ix2 p k) * wf (ix2 k q)) + b (ix2 (0 : Fin 1) q) := rfl

/-- The two heads are one array when the one-row bias is the bias vector. -/
theorem headTile_eq_headRef (a : Mat N K) (wf : Mat K C) (b : Row C) (b1 : Mat 1 C)
    (hb : ∀ q : Fin C, b1 (ix2 (0 : Fin 1) q) = b (ix1 q)) : headTile a wf b1 = headRef a wf b := by
  funext i
  unfold headTile headRef
  rw [hb]

end Cert.Sage

end
-- ==== Proof.LibKeepdims.lean ====
/-
  Layout operations of a row reduction kept as a column, read at an index given by coordinates.

  A reduction over the columns of an [a, b] array gives an [a] vector. Keeping the reduced axis makes it an [a, 1]
  column (a shape cast on the kernel's side, a broadcast along the axes [0] on the host's), and the column is then
  spread over the b columns (a broadcast [a, 1] → [a, b]). Read at (p, c) the spread column is the vector at p.
-/
import Idealize.ShloMosaic.Lib.ValueLayout

namespace Cert.Lib.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: an `[a]` array broadcast along the axes `[0]` to `[a, 1]`. -/
theorem broadcastInDim_a_a1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's form of the second: an `[a, 1]` column broadcast along the axes `[0, 1]` to `[a, b]`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.Region0.lean ====
/-
  Region 0 (the first layer's combine kernel): its output array after the write-backs, as one function of the arrays it finds.

  The grid has ten points; point t stages rows 5000·t … 5000·t + 4999 of the three row-blocked arrays (the neighbour
  sums, the reciprocal-degree column, the node features) and the whole of the small ones, and writes the same rows
  of the output back. At an entry (p, q) of its block the body computes
      max(((Σ_k (s[p,k] · inv[p]) · wl[k,q]) + Σ_k h[p,k] · wr[k,q]) + b[q], 0),
  so the output array is the tiled form of the layer (LibSageLayer.lean) of the whole arrays: block t of that function is
  what point t writes back, and the ten blocks cover the array.
-/
import proofs.«109179_j2534030704731_2_alg».proof.Proof.Gen.KernelIdeal.Frame
import proofs.«109179_j2534030704731_2_alg».proof.Proof.LibSageLayer
import proofs.«109179_j2534030704731_2_alg».proof.Proof.LibKeepdims
import Idealize.ShloMosaic.Lib.Pipeline.Value
import Idealize.ShloMosaic.Lib.ValueIdx
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's arithmetic at one entry of the block -/

/-- Entry (p, q) of what the body stores, from the blocks it loaded. -/
theorem tile0_apply (x0 : Vec Ideal S5000x128 .f32) (x1 : Vec Ideal S5000x1 .f32) (x2 : Vec Ideal S5000x128 .f32)
    (x3 x5 : Vec Ideal S128x128 .f32) (x4 : Vec Ideal S1x128 .f32) (p : Fin 5000) (q : Fin 128) :
    k0_pay1 (F := Ideal) x0 x1 x2 x3 x5 x4 (ix2 p q)
      = max (((∑ k : Fin 128, (x0 (ix2 p k) * x1 (ix2 p (0 : Fin 1))) * x3 (ix2 k q))
          + ∑ k : Fin 128, x2 (ix2 p k) * x5 (ix2 k q)) + x4 (ix2 (0 : Fin 1) q)) 0 := by
  unfold k0_pay1
  refine (Cert.Dense.tileRelu_apply 5000 128 _ (ix2 p q)).trans ?_
  refine congrArg (fun z => max z 0) ?_
  refine (Cert.Dense.tileAddRow_apply 5000 128 shapeCasts_S1x128_S1x128 broadcasts_S1x128_S5000x128 _ x4 p q).trans ?_
  refine congrArg (fun z => z + x4 (ix2 (0 : Fin 1) q)) ?_
  refine congrArg₂ (· + ·) ?_ ?_
  · refine (Cert.Dense.tileProduct_apply 5000 128 128 none bitsLt_bf16_f32 bitsLt_bf16_f32 _ _ p q).trans ?_
    refine Finset.sum_congr rfl fun k _ => ?_
    refine congrArg₂ (· * ·) ?_ (congrFun (shapeCast_self x3 shapeCasts_S128x128_S128x128) (ix2 k q))
    refine congrArg₂ (· * ·) (congrFun (shapeCast_self x0 shapeCasts_S5000x128_S5000x128) (ix2 p k)) ?_
    exact (Cert.Lib.Keepdims.broadcastTo_a1_ab_apply _ broadcasts_S5000x1_S5000x128 p k).trans
      (congrFun (shapeCast_self x1 shapeCasts_S5000x1_S5000x1) (ix2 p (0 : Fin 1)))
  · refine (Cert.Dense.tileProduct_apply 5000 128 128 none bitsLt_bf16_f32 bitsLt_bf16_f32 x2 _ p q).trans ?_
    refine Finset.sum_congr rfl fun k _ => ?_
    exact congrArg (fun z => x2 (ix2 p k) * z) (congrFun (shapeCast_self x5 shapeCasts_S128x128_S128x128) (ix2 k q))

/-! ## The index maps over the grid -/

theorem hz0 : (![0, 0] : Fin 2 → Nat) = fun _ => 0 := funext fun a => by fin_cases a <;> rfl

/-- The printed index maps, decided over the ten grid points: the three row-blocked inputs and the output move
    together, one block of 5000 rows per point; the small arrays stay at their one block. -/
theorem idx_facts0 : ∀ t : Fin cfg0.N,
      win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ t.val ≤ 9 :=
  (by decide +kernel : ∀ t : Fin grid0.N, _)

/-- Every block of rows is some point's. -/
theorem idx_onto0 : ∀ q0 : Fin 10, ∃ t : Fin cfg0.N, t.val = q0.val :=
  (by decide +kernel : ∀ q0 : Fin 10, ∃ t : Fin grid0.N, t.val = q0.val)

/-- The array row that row p of point t's block is. -/
def row0 (t : Fin cfg0.N) (p : Fin 5000) : Fin 50000 :=
  ⟨t.val * 5000 + p.val, by have h := (idx_facts0 t).2.2.2.2.2.2.2.2.2.2.2.2.2.2; have hp := p.isLt; omega⟩

section
variable (V : (c : Dev nD) → (b : Ref sig .tc) → Buf (Elt Ideal) ((c : Thread nD τ).loc b)) (c : Dev nD) (t : Fin cfg0.N)

/-! ## Each block read where its rectangle says -/

theorem blk0_0 (p : Fin 5000) (k : Fin 128) :
    iblk0 V c 0 t (ix2 p k) = (V c main_v22 : S50000x128.Idx → EReal) (ix2 (row0 t p) k) := by
  show V c main_v22 (((cfg0.win 0).blk t).view.emb (ix2 p k)) = _
  refine congrArg _ ?_
  obtain ⟨-, -, e0, e1, -⟩ := idx_facts0 t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem blk0_1 (p : Fin 5000) :
    iblk0 V c 1 t (ix2 p (0 : Fin 1)) = (V c main_v12 : S50000x1.Idx → EReal) (ix2 (row0 t p) (0 : Fin 1)) := by
  show V c main_v12 (((cfg0.win 1).blk t).view.emb (ix2 p (0 : Fin 1))) = _
  refine congrArg _ ?_
  obtain ⟨-, -, -, -, e0, e1, -⟩ := idx_facts0 t
  funext a; apply Fin.ext
  match a with
  | ⟨0, _⟩ => show win0_1.index t (0 : Fin 2) * 5000 + 1 * p.val = t.val * 5000 + p.val; omega
  | ⟨1, _⟩ => show win0_1.index t (1 : Fin 2) * 1 + 1 * 0 = 0; omega

theorem blk0_2 (p : Fin 5000) (k : Fin 128) :
    iblk0 V c 2 t (ix2 p k) = (V c main_arg0 : S50000x128.Idx → EReal) (ix2 (row0 t p) k) := by
  show V c main_arg0 (((cfg0.win 2).blk t).view.emb (ix2 p k)) = _
  refine congrArg _ ?_
  obtain ⟨-, -, -, -, -, -, e0, e1, -⟩ := idx_facts0 t
  funext a; apply Fin.ext
  match a with
  | ⟨0, _⟩ => show win0_2.index t (0 : Fin 2) * 5000 + 1 * p.val = t.val * 5000 + p.val; omega
  | ⟨1, _⟩ => show win0_2.index t (1 : Fin 2) * 128 + 1 * k.val = k.val; omega

theorem blk0_3 (k q : Fin 128) :
    iblk0 V c 3 t (ix2 k q) = (V c main_v23 : S128x128.Idx → EReal) (ix2 k q) := by
  show V c main_v23 (((cfg0.win 3).blk t).view.emb (ix2 k q)) = _
  refine congrArg _ ?_
  obtain ⟨-, -, -, -, -, -, -, -, e0, e1, -⟩ := idx_facts0 t
  funext a; apply Fin.ext
  match a with
  | ⟨0, _⟩ => show win0_3.index t (0 : Fin 2) * 128 + 1 * k.val = k.val; omega
  | ⟨1, _⟩ => show win0_3.index t (1 : Fin 2) * 128 + 1 * q.val = q.val; omega

theorem blk0_4 (q : Fin 128) :
    iblk0 V c 4 t (ix2 (0 : Fin 1) q) = (V c main_v25 : S1x128.Idx → EReal) (ix2 (0 : Fin 1) q) := by
  show V c main_v25 (((cfg0.win 4).blk t).view.emb (ix2 (0 : Fin 1) q)) = _
  refine congrArg _ ?_
  obtain ⟨-, -, -, -, -, -, -, -, -, -, e0, e1, -⟩ := idx_facts0 t
  funext a; apply Fin.ext
  match a with
  | ⟨0, _⟩ => show win0_4.index t (0 : Fin 2) * 1 + 1 * 0 = 0; omega
  | ⟨1, _⟩ => show win0_4.index t (1 : Fin 2) * 128 + 1 * q.val = q.val; omega

theorem blk0_5 (k q : Fin 128) :
    iblk0 V c 5 t (ix2 k q) = (V c main_v24 : S128x128.Idx → EReal) (ix2 k q) := by
  show V c main_v24 (((cfg0.win 5).blk t).view.emb (ix2 k q)) = _
  refine congrArg _ ?_
  obtain ⟨-, -, -, -, -, -, -, -, -, -, -, -, e0, e1, -⟩ := idx_facts0 t
  funext a; apply Fin.ext
  match a with
  | ⟨0, _⟩ => show win0_5.index t (0 : Fin 2) * 128 + 1 * k.val = k.val; omega
  | ⟨1, _⟩ => show win0_5.index t (1 : Fin 2) * 128 + 1 * q.val = q.val; omega

/-- Entry (p, q) of the output's block at point t is entry (5000·t + p, q) of the array. -/
theorem emb0_6 (p : Fin 5000) (q : Fin 128) :
    ((cfg0.win 6).blk t).view.emb (ix2 p q) = (ix2 (row0 t p) q : S50000x128.Idx) := by
  obtain ⟨e0, e1, -⟩ := idx_facts0 t
  funext a; apply Fin.ext
  match a with
  | ⟨0, _⟩ => show win0_6.index t (0 : Fin 2) * 5000 + 1 * p.val = t.val * 5000 + p.val; omega
  | ⟨1, _⟩ => show win0_6.index t (1 : Fin 2) * 128 + 1 * q.val = q.val; omega

/-! ## The output array -/

/-- The layer's tiled form of the arrays the region finds. -/
def tile0 : S50000x128.Idx → EReal :=
  Cert.Sage.layerTile (N := 50000) (K := 128) (C := 128) (V c main_v22) (V c main_arg0) (V c main_v12)
    (V c main_v23) (V c main_v24) (V c main_v25)

/-- What point t writes back is block t of that array. -/
theorem flushed0_eq :
    (dat0 (F := Ideal) V c).flushed 6 t = ((cfg0.win 6).blk t).view.read (Elt Ideal) (tile0 V c) := by
  show (cfg0.win 6).cut (grid0.coords t) ((dat0 V c).after 6 t) = _
  rw [after0_6]
  unfold out0_6
  rw [View.canon_unit_zero hz0]
  simp only [View.ld_unit_zero (S := S5000x128) hz0, View.ld_unit_zero (S := S5000x1) hz0,
    View.ld_unit_zero (S := S128x128) hz0, View.ld_unit_zero (S := S1x128) hz0]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 5 t) (iblk0 V c 4 t) (ix2 p q)
    = tile0 V c (((cfg0.win 6).blk t).view.emb (ix2 p q))
  refine (tile0_apply (iblk0 V c 0 t) (iblk0 V c 1 t) (iblk0 V c 2 t) (iblk0 V c 3 t) (iblk0 V c 5 t) (iblk0 V c 4 t) p q).trans ?_
  rw [emb0_6 t p q]
  unfold tile0
  rw [Cert.Sage.layerTile_apply]
  simp only [blk0_0 V c t, blk0_1 V c t, blk0_2 V c t, blk0_3 V c t, blk0_4 V c t, blk0_5 V c t]

end

/-- An index of the array is in point t's block iff each coordinate is in the block's range on its axis. -/
theorem mem_blk0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v26).slice (win0_6.rect t)).set ↔ _
  rw [View.set_slice_whole, Rect.mem_set_unit]
  exact Iff.rfl

/-- The ten blocks cover the array: row r is in the block of point r / 5000. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto0 ⟨(i 0).val / 5000, by omega⟩
  have ht' : t.val = (i 0).val / 5000 := ht
  obtain ⟨e0, e1, -⟩ := idx_facts0 t
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The output array after the ten write-backs is the layer's tiled form of the arrays the region found. -/
theorem final0 (V : (c : Dev nD) → (b : Ref sig .tc) → Buf (Elt Ideal) ((c : Thread nD τ).loc b)) (c : Dev nD) :
    (dat0 (F := Ideal) V c).arrAt 6 cfg0.N = tile0 V c :=
  (dat0 (F := Ideal) V c).arrAt_eq_of_cover 6 (tile0 V c) (fun t _ => flushed0_eq V c t) cover0

end Cert.KernelIdeal.Whole

end
-- ==== Proof.Region1.lean ====
/-
  Region 1 (the second layer's combine kernel): its output array after the write-backs, as one function of the arrays it finds.

  The grid has ten points; point t stages rows 5000·t … 5000·t + 4999 of the three row-blocked arrays (the neighbour
  sums, the reciprocal-degree column, the node features) and the whole of the small ones, and writes the same rows
  of the output back. At an entry (p, q) of its block the body computes
      max(((Σ_k (s[p,k] · inv[p]) · wl[k,q]) + Σ_k h[p,k] · wr[k,q]) + b[q], 0),
  so the output array is the tiled form of the layer (LibSageLayer.lean) of the whole arrays: block t of that function is
  what point t writes back, and the ten blocks cover the array.
-/
import proofs.«109179_j2534030704731_2_alg».proof.Proof.Gen.KernelIdeal.Frame
import proofs.«109179_j2534030704731_2_alg».proof.Proof.LibSageLayer
import proofs.«109179_j2534030704731_2_alg».proof.Proof.LibKeepdims
import Idealize.ShloMosaic.Lib.Pipeline.Value
import Idealize.ShloMosaic.Lib.ValueIdx
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's arithmetic at one entry of the block -/

/-- Entry (p, q) of what the body stores, from the blocks it loaded. -/
theorem tile1_apply (x0 : Vec Ideal S5000x128 .f32) (x1 : Vec Ideal S5000x1 .f32) (x2 : Vec Ideal S5000x128 .f32)
    (x3 x5 : Vec Ideal S128x128 .f32) (x4 : Vec Ideal S1x128 .f32) (p : Fin 5000) (q : Fin 128) :
    k1_pay1 (F := Ideal) x0 x1 x2 x3 x5 x4 (ix2 p q)
      = max (((∑ k : Fin 128, (x0 (ix2 p k) * x1 (ix2 p (0 : Fin 1))) * x3 (ix2 k q))
          + ∑ k : Fin 128, x2 (ix2 p k) * x5 (ix2 k q)) + x4 (ix2 (0 : Fin 1) q)) 0 := by
  unfold k1_pay1
  refine (Cert.Dense.tileRelu_apply 5000 128 _ (ix2 p q)).trans ?_
  refine congrArg (fun z => max z 0) ?_
  refine (Cert.Dense.tileAddRow_apply 5000 128 shapeCasts_S1x128_S1x128 broadcasts_S1x128_S5000x128 _ x4 p q).trans ?_
  refine congrArg (fun z => z + x4 (ix2 (0 : Fin 1) q)) ?_
  refine congrArg₂ (· + ·) ?_ ?_
  · refine (Cert.Dense.tileProduct_apply 5000 128 128 none bitsLt_bf16_f32 bitsLt_bf16_f32 _ _ p q).trans ?_
    refine Finset.sum_congr rfl fun k _ => ?_
    refine congrArg₂ (· * ·) ?_ (congrFun (shapeCast_self x3 shapeCasts_S128x128_S128x128) (ix2 k q))
    refine congrArg₂ (· * ·) (congrFun (shapeCast_self x0 shapeCasts_S5000x128_S5000x128) (ix2 p k)) ?_
    exact (Cert.Lib.Keepdims.broadcastTo_a1_ab_apply _ broadcasts_S5000x1_S5000x128 p k).trans
      (congrFun (shapeCast_self x1 shapeCasts_S5000x1_S5000x1) (ix2 p (0 : Fin 1)))
  · refine (Cert.Dense.tileProduct_apply 5000 128 128 none bitsLt_bf16_f32 bitsLt_bf16_f32 _ _ p q).trans ?_
    refine Finset.sum_congr rfl fun k _ => ?_
    exact congrArg₂ (· * ·) (congrFun (shapeCast_self x2 shapeCasts_S5000x128_S5000x128) (ix2 p k))
      (congrFun (shapeCast_self x5 shapeCasts_S128x128_S128x128) (ix2 k q))

/-! ## The index maps over the grid -/

theorem hz1 : (![0, 0] : Fin 2 → Nat) = fun _ => 0 := funext fun a => by fin_cases a <;> rfl

/-- The printed index maps, decided over the ten grid points: the three row-blocked inputs and the output move
    together, one block of 5000 rows per point; the small arrays stay at their one block. -/
theorem idx_facts1 : ∀ t : Fin cfg1.N,
      win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ t.val ≤ 9 :=
  (by decide +kernel : ∀ t : Fin grid1.N, _)

/-- Every block of rows is some point's. -/
theorem idx_onto1 : ∀ q0 : Fin 10, ∃ t : Fin cfg1.N, t.val = q0.val :=
  (by decide +kernel : ∀ q0 : Fin 10, ∃ t : Fin grid1.N, t.val = q0.val)

/-- The array row that row p of point t's block is. -/
def row1 (t : Fin cfg1.N) (p : Fin 5000) : Fin 50000 :=
  ⟨t.val * 5000 + p.val, by have h := (idx_facts1 t).2.2.2.2.2.2.2.2.2.2.2.2.2.2; have hp := p.isLt; omega⟩

section
variable (V : (c : Dev nD) → (b : Ref sig .tc) → Buf (Elt Ideal) ((c : Thread nD τ).loc b)) (c : Dev nD) (t : Fin cfg1.N)

/-! ## Each block read where its rectangle says -/

theorem blk1_0 (p : Fin 5000) (k : Fin 128) :
    iblk1 V c 0 t (ix2 p k) = (V c main_v36 : S50000x128.Idx → EReal) (ix2 (row1 t p) k) := by
  show V c main_v36 (((cfg1.win 0).blk t).view.emb (ix2 p k)) = _
  refine congrArg _ ?_
  obtain ⟨-, -, e0, e1, -⟩ := idx_facts1 t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

theorem blk1_1 (p : Fin 5000) :
    iblk1 V c 1 t (ix2 p (0 : Fin 1)) = (V c main_v12 : S50000x1.Idx → EReal) (ix2 (row1 t p) (0 : Fin 1)) := by
  show V c main_v12 (((cfg1.win 1).blk t).view.emb (ix2 p (0 : Fin 1))) = _
  refine congrArg _ ?_
  obtain ⟨-, -, -, -, e0, e1, -⟩ := idx_facts1 t
  funext a; apply Fin.ext
  match a with
  | ⟨0, _⟩ => show win1_1.index t (0 : Fin 2) * 5000 + 1 * p.val = t.val * 5000 + p.val; omega
  | ⟨1, _⟩ => show win1_1.index t (1 : Fin 2) * 1 + 1 * 0 = 0; omega

theorem blk1_2 (p : Fin 5000) (k : Fin 128) :
    iblk1 V c 2 t (ix2 p k) = (V c main_v26 : S50000x128.Idx → EReal) (ix2 (row1 t p) k) := by
  show V c main_v26 (((cfg1.win 2).blk t).view.emb (ix2 p k)) = _
  refine congrArg _ ?_
  obtain ⟨-, -, -, -, -, -, e0, e1, -⟩ := idx_facts1 t
  funext a; apply Fin.ext
  match a with
  | ⟨0, _⟩ => show win1_2.index t (0 : Fin 2) * 5000 + 1 * p.val = t.val * 5000 + p.val; omega
  | ⟨1, _⟩ => show win1_2.index t (1 : Fin 2) * 128 + 1 * k.val = k.val; omega

theorem blk1_3 (k q : Fin 128) :
    iblk1 V c 3 t (ix2 k q) = (V c main_v37 : S128x128.Idx → EReal) (ix2 k q) := by
  show V c main_v37 (((cfg1.win 3).blk t).view.emb (ix2 k q)) = _
  refine congrArg _ ?_
  obtain ⟨-, -, -, -, -, -, -, -, e0, e1, -⟩ := idx_facts1 t
  funext a; apply Fin.ext
  match a with
  | ⟨0, _⟩ => show win1_3.index t (0 : Fin 2) * 128 + 1 * k.val = k.val; omega
  | ⟨1, _⟩ => show win1_3.index t (1 : Fin 2) * 128 + 1 * q.val = q.val; omega

theorem blk1_4 (q : Fin 128) :
    iblk1 V c 4 t (ix2 (0 : Fin 1) q) = (V c main_v39 : S1x128.Idx → EReal) (ix2 (0 : Fin 1) q) := by
  show V c main_v39 (((cfg1.win 4).blk t).view.emb (ix2 (0 : Fin 1) q)) = _
  refine congrArg _ ?_
  obtain ⟨-, -, -, -, -, -, -, -, -, -, e0, e1, -⟩ := idx_facts1 t
  funext a; apply Fin.ext
  match a with
  | ⟨0, _⟩ => show win1_4.index t (0 : Fin 2) * 1 + 1 * 0 = 0; omega
  | ⟨1, _⟩ => show win1_4.index t (1 : Fin 2) * 128 + 1 * q.val = q.val; omega

theorem blk1_5 (k q : Fin 128) :
    iblk1 V c 5 t (ix2 k q) = (V c main_v38 : S128x128.Idx → EReal) (ix2 k q) := by
  show V c main_v38 (((cfg1.win 5).blk t).view.emb (ix2 k q)) = _
  refine congrArg _ ?_
  obtain ⟨-, -, -, -, -, -, -, -, -, -, -, -, e0, e1, -⟩ := idx_facts1 t
  funext a; apply Fin.ext
  match a with
  | ⟨0, _⟩ => show win1_5.index t (0 : Fin 2) * 128 + 1 * k.val = k.val; omega
  | ⟨1, _⟩ => show win1_5.index t (1 : Fin 2) * 128 + 1 * q.val = q.val; omega

/-- Entry (p, q) of the output's block at point t is entry (5000·t + p, q) of the array. -/
theorem emb1_6 (p : Fin 5000) (q : Fin 128) :
    ((cfg1.win 6).blk t).view.emb (ix2 p q) = (ix2 (row1 t p) q : S50000x128.Idx) := by
  obtain ⟨e0, e1, -⟩ := idx_facts1 t
  funext a; apply Fin.ext
  match a with
  | ⟨0, _⟩ => show win1_6.index t (0 : Fin 2) * 5000 + 1 * p.val = t.val * 5000 + p.val; omega
  | ⟨1, _⟩ => show win1_6.index t (1 : Fin 2) * 128 + 1 * q.val = q.val; omega

/-! ## The output array -/

/-- The layer's tiled form of the arrays the region finds. -/
def tile1 : S50000x128.Idx → EReal :=
  Cert.Sage.layerTile (N := 50000) (K := 128) (C := 128) (V c main_v36) (V c main_v26) (V c main_v12)
    (V c main_v37) (V c main_v38) (V c main_v39)

/-- What point t writes back is block t of that array. -/
theorem flushed1_eq :
    (dat1 (F := Ideal) V c).flushed 6 t = ((cfg1.win 6).blk t).view.read (Elt Ideal) (tile1 V c) := by
  show (cfg1.win 6).cut (grid1.coords t) ((dat1 V c).after 6 t) = _
  rw [after1_6]
  unfold out1_6
  rw [View.canon_unit_zero hz1]
  simp only [View.ld_unit_zero (S := S5000x128) hz1, View.ld_unit_zero (S := S5000x1) hz1,
    View.ld_unit_zero (S := S128x128) hz1, View.ld_unit_zero (S := S1x128) hz1]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 5 t) (iblk1 V c 4 t) (ix2 p q)
    = tile1 V c (((cfg1.win 6).blk t).view.emb (ix2 p q))
  refine (tile1_apply (iblk1 V c 0 t) (iblk1 V c 1 t) (iblk1 V c 2 t) (iblk1 V c 3 t) (iblk1 V c 5 t) (iblk1 V c 4 t) p q).trans ?_
  rw [emb1_6 t p q]
  unfold tile1
  rw [Cert.Sage.layerTile_apply]
  simp only [blk1_0 V c t, blk1_1 V c t, blk1_2 V c t, blk1_3 V c t, blk1_4 V c t, blk1_5 V c t]

end

/-- An index of the array is in point t's block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v40).slice (win1_6.rect t)).set ↔ _
  rw [View.set_slice_whole, Rect.mem_set_unit]
  exact Iff.rfl

/-- The ten blocks cover the array: row r is in the block of point r / 5000. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := idx_onto1 ⟨(i 0).val / 5000, by omega⟩
  have ht' : t.val = (i 0).val / 5000 := ht
  obtain ⟨e0, e1, -⟩ := idx_facts1 t
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The output array after the ten write-backs is the layer's tiled form of the arrays the region found. -/
theorem final1 (V : (c : Dev nD) → (b : Ref sig .tc) → Buf (Elt Ideal) ((c : Thread nD τ).loc b)) (c : Dev nD) :
    (dat1 (F := Ideal) V c).arrAt 6 cfg1.N = tile1 V c :=
  (dat1 (F := Ideal) V c).arrAt_eq_of_cover 6 (tile1 V c) (fun t _ => flushed1_eq V c t) cover1

end Cert.KernelIdeal.Whole

end
-- ==== Proof.Region2.lean ====
/-
  Region 2 (the last layer's combine kernel with the linear head fused in): its output array after the write-backs, as one function of the arrays it finds.

  The grid has ten points; point t stages rows 5000·t … 5000·t + 4999 of the three row-blocked arrays (the neighbour
  sums, the reciprocal-degree column, the node features) and the whole of the small ones, and writes the same rows
  of the output back. At an entry (p, q) of its block the body computes
      Σ_j max(((Σ_k (s[p,k] · inv[p]) · wl[k,j]) + Σ_k h[p,k] · wr[k,j]) + b[j], 0) · wf[j] + bf,
  so the output array is the tiled form of the layer (LibSageLayer.lean) of the whole arrays: block t of that function is
  what point t writes back, and the ten blocks cover the array.
-/
import proofs.«109179_j2534030704731_2_alg».proof.Proof.Gen.KernelIdeal.Frame
import proofs.«109179_j2534030704731_2_alg».proof.Proof.LibSageLayer
import proofs.«109179_j2534030704731_2_alg».proof.Proof.LibKeepdims
import Idealize.ShloMosaic.Lib.Pipeline.Value
import Idealize.ShloMosaic.Lib.ValueIdx
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's arithmetic at one entry of the block -/

/-- Entry (p, u) of what the body stores, from the blocks it loaded: the rectified layer's row p against the head's
    one column, plus the head's bias. -/
theorem tile2_apply (x0 : Vec Ideal S5000x128 .f32) (x1 : Vec Ideal S5000x1 .f32) (x2 : Vec Ideal S5000x128 .f32)
    (x3 x5 : Vec Ideal S128x128 .f32) (x4 : Vec Ideal S1x128 .f32) (x6 : Vec Ideal S128x1 .f32) (x7 : Vec Ideal S1x1 .f32)
    (p : Fin 5000) (u : Fin 1) :
    k2_pay1 (F := Ideal) x0 x1 x2 x3 x5 x4 x6 x7 (ix2 p u)
      = (∑ j : Fin 128, (max (((∑ k : Fin 128, (x0 (ix2 p k) * x1 (ix2 p (0 : Fin 1))) * x3 (ix2 k j))
          + ∑ k : Fin 128, x2 (ix2 p k) * x5 (ix2 k j)) + x4 (ix2 (0 : Fin 1) j)) 0) * x6 (ix2 j u))
        + x7 (ix2 (0 : Fin 1) u) := by
  unfold k2_pay1
  refine (Cert.Dense.tileAddRow_apply 5000 1 shapeCasts_S1x1_S1x1 broadcasts_S1x1_S5000x1 _ x7 p u).trans ?_
  refine congrArg (fun z => z + x7 (ix2 (0 : Fin 1) u)) ?_
  refine (Cert.Dense.tileProduct_apply 5000 128 1 none bitsLt_bf16_f32 bitsLt_bf16_f32 _ _ p u).trans ?_
  refine Finset.sum_congr rfl fun j _ => ?_
  refine congrArg₂ (· * ·) ?_ (congrFun (shapeCast_self x6 shapeCasts_S128x1_S128x1) (ix2 j u))
  refine (Cert.Dense.tileRelu_apply 5000 128 _ (ix2 p j)).trans ?_
  refine congrArg (fun z => max z 0) ?_
  refine (Cert.Dense.tileAddRow_apply 5000 128 shapeCasts_S1x128_S1x128 broadcasts_S1x128_S5000x128 _ x4 p j).trans ?_
  refine congrArg (fun z => z + x4 (ix2 (0 : Fin 1) j)) ?_
  refine congrArg₂ (· + ·) ?_ ?_
  · refine (Cert.Dense.tileProduct_apply 5000 128 128 none bitsLt_bf16_f32 bitsLt_bf16_f32 _ _ p j).trans ?_
    refine Finset.sum_congr rfl fun k _ => ?_
    refine congrArg₂ (· * ·) ?_ (congrFun (shapeCast_self x3 shapeCasts_S128x128_S128x128) (ix2 k j))
    refine congrArg₂ (· * ·) (congrFun (shapeCast_self x0 shapeCasts_S5000x128_S5000x128) (ix2 p k)) ?_
    exact (Cert.Lib.Keepdims.broadcastTo_a1_ab_apply _ broadcasts_S5000x1_S5000x128 p k).trans
      (congrFun (shapeCast_self x1 shapeCasts_S5000x1_S5000x1) (ix2 p (0 : Fin 1)))
  · refine (Cert.Dense.tileProduct_apply 5000 128 128 none bitsLt_bf16_f32 bitsLt_bf16_f32 _ _ p j).trans ?_
    refine Finset.sum_congr rfl fun k _ => ?_
    exact congrArg₂ (· * ·) (congrFun (shapeCast_self x2 shapeCasts_S5000x128_S5000x128) (ix2 p k))
      (congrFun (shapeCast_self x5 shapeCasts_S128x128_S128x128) (ix2 k j))

/-! ## The index maps over the grid -/

theorem hz2 : (![0, 0] : Fin 2 → Nat) = fun _ => 0 := funext fun a => by fin_cases a <;> rfl

/-- The printed index maps, decided over the ten grid points: the three row-blocked inputs and the output move
    together, one block of 5000 rows per point; the small arrays stay at their one block. -/
theorem idx_facts2 : ∀ t : Fin cfg2.N,
      win2_8.index t (0 : Fin 2) = t.val ∧ win2_8.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ t.val ≤ 9 :=
  (by decide +kernel : ∀ t : Fin grid2.N, _)

/-- Every block of rows is some point's. -/
theorem idx_onto2 : ∀ q0 : Fin 10, ∃ t : Fin cfg2.N, t.val = q0.val :=
  (by decide +kernel : ∀ q0 : Fin 10, ∃ t : Fin grid2.N, t.val = q0.val)

/-- The array row that row p of point t's block is. -/
def row2 (t : Fin cfg2.N) (p : Fin 5000) : Fin 50000 :=
  ⟨t.val * 5000 + p.val, by have h := (idx_facts2 t).2.2.2.2.2.2.2.2.2.2.2.2.2.2.2.2.2.2; have hp := p.isLt; omega⟩

section
variable (V : (c : Dev nD) → (b : Ref sig .tc) → Buf (Elt Ideal) ((c : Thread nD τ).loc b)) (c : Dev nD) (t : Fin cfg2.N)

/-! ## Each block read where its rectangle says -/

theorem blk2_0 (p : Fin 5000) (k : Fin 128) :
    iblk2 V c 0 t (ix2 p k) = (V c main_v50 : S50000x128.Idx → EReal) (ix2 (row2 t p) k) := by
  show V c main_v50 (((cfg2.win 0).blk t).view.emb (ix2 p k)) = _
  refine congrArg _ ?_
  obtain ⟨-, -, e0, e1, -⟩ := idx_facts2 t
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

theorem blk2_1 (p : Fin 5000) :
    iblk2 V c 1 t (ix2 p (0 : Fin 1)) = (V c main_v12 : S50000x1.Idx → EReal) (ix2 (row2 t p) (0 : Fin 1)) := by
  show V c main_v12 (((cfg2.win 1).blk t).view.emb (ix2 p (0 : Fin 1))) = _
  refine congrArg _ ?_
  obtain ⟨-, -, -, -, e0, e1, -⟩ := idx_facts2 t
  funext a; apply Fin.ext
  match a with
  | ⟨0, _⟩ => show win2_1.index t (0 : Fin 2) * 5000 + 1 * p.val = t.val * 5000 + p.val; omega
  | ⟨1, _⟩ => show win2_1.index t (1 : Fin 2) * 1 + 1 * 0 = 0; omega

theorem blk2_2 (p : Fin 5000) (k : Fin 128) :
    iblk2 V c 2 t (ix2 p k) = (V c main_v40 : S50000x128.Idx → EReal) (ix2 (row2 t p) k) := by
  show V c main_v40 (((cfg2.win 2).blk t).view.emb (ix2 p k)) = _
  refine congrArg _ ?_
  obtain ⟨-, -, -, -, -, -, e0, e1, -⟩ := idx_facts2 t
  funext a; apply Fin.ext
  match a with
  | ⟨0, _⟩ => show win2_2.index t (0 : Fin 2) * 5000 + 1 * p.val = t.val * 5000 + p.val; omega
  | ⟨1, _⟩ => show win2_2.index t (1 : Fin 2) * 128 + 1 * k.val = k.val; omega

theorem blk2_3 (k q : Fin 128) :
    iblk2 V c 3 t (ix2 k q) = (V c main_v51 : S128x128.Idx → EReal) (ix2 k q) := by
  show V c main_v51 (((cfg2.win 3).blk t).view.emb (ix2 k q)) = _
  refine congrArg _ ?_
  obtain ⟨-, -, -, -, -, -, -, -, e0, e1, -⟩ := idx_facts2 t
  funext a; apply Fin.ext
  match a with
  | ⟨0, _⟩ => show win2_3.index t (0 : Fin 2) * 128 + 1 * k.val = k.val; omega
  | ⟨1, _⟩ => show win2_3.index t (1 : Fin 2) * 128 + 1 * q.val = q.val; omega

theorem blk2_4 (q : Fin 128) :
    iblk2 V c 4 t (ix2 (0 : Fin 1) q) = (V c main_v54 : S1x128.Idx → EReal) (ix2 (0 : Fin 1) q) := by
  show V c main_v54 (((cfg2.win 4).blk t).view.emb (ix2 (0 : Fin 1) q)) = _
  refine congrArg _ ?_
  obtain ⟨-, -, -, -, -, -, -, -, -, -, e0, e1, -⟩ := idx_facts2 t
  funext a; apply Fin.ext
  match a with
  | ⟨0, _⟩ => show win2_4.index t (0 : Fin 2) * 1 + 1 * 0 = 0; omega
  | ⟨1, _⟩ => show win2_4.index t (1 : Fin 2) * 128 + 1 * q.val = q.val; omega

theorem blk2_5 (k q : Fin 128) :
    iblk2 V c 5 t (ix2 k q) = (V c main_v52 : S128x128.Idx → EReal) (ix2 k q) := by
  show V c main_v52 (((cfg2.win 5).blk t).view.emb (ix2 k q)) = _
  refine congrArg _ ?_
  obtain ⟨-, -, -, -, -, -, -, -, -, -, -, -, e0, e1, -⟩ := idx_facts2 t
  funext a; apply Fin.ext
  match a with
  | ⟨0, _⟩ => show win2_5.index t (0 : Fin 2) * 128 + 1 * k.val = k.val; omega
  | ⟨1, _⟩ => show win2_5.index t (1 : Fin 2) * 128 + 1 * q.val = q.val; omega

theorem blk2_6 (k : Fin 128) (u : Fin 1) :
    iblk2 V c 6 t (ix2 k u) = (V c main_v53 : S128x1.Idx → EReal) (ix2 k u) := by
  show V c main_v53 (((cfg2.win 6).blk t).view.emb (ix2 k u)) = _
  refine congrArg _ ?_
  obtain ⟨-, -, -, -, -, -, -, -, -, -, -, -, -, -, e0, e1, -⟩ := idx_facts2 t
  funext a; apply Fin.ext
  match a with
  | ⟨0, _⟩ => show win2_6.index t (0 : Fin 2) * 128 + 1 * k.val = k.val; omega
  | ⟨1, _⟩ => show win2_6.index t (1 : Fin 2) * 1 + 1 * u.val = u.val; omega

theorem blk2_7 (u : Fin 1) :
    iblk2 V c 7 t (ix2 (0 : Fin 1) u) = (V c main_v55 : S1x1.Idx → EReal) (ix2 (0 : Fin 1) u) := by
  show V c main_v55 (((cfg2.win 7).blk t).view.emb (ix2 (0 : Fin 1) u)) = _
  refine congrArg _ ?_
  obtain ⟨-, -, -, -, -, -, -, -, -, -, -, -, -, -, -, -, e0, e1, -⟩ := idx_facts2 t
  funext a; apply Fin.ext
  match a with
  | ⟨0, _⟩ => show win2_7.index t (0 : Fin 2) * 1 + 1 * 0 = 0; omega
  | ⟨1, _⟩ => show win2_7.index t (1 : Fin 2) * 1 + 1 * u.val = u.val; omega

/-- Entry (p, u) of the output's block at point t is entry (5000·t + p, u) of the array. -/
theorem emb2_8 (p : Fin 5000) (u : Fin 1) :
    ((cfg2.win 8).blk t).view.emb (ix2 p u) = (ix2 (row2 t p) u : S50000x1.Idx) := by
  obtain ⟨e0, e1, -⟩ := idx_facts2 t
  funext a; apply Fin.ext
  match a with
  | ⟨0, _⟩ => show win2_8.index t (0 : Fin 2) * 5000 + 1 * p.val = t.val * 5000 + p.val; omega
  | ⟨1, _⟩ => show win2_8.index t (1 : Fin 2) * 1 + 1 * u.val = u.val; omega

/-! ## The output array -/

/-- The head's tiled form over the layer's tiled form of the arrays the region finds. -/
def tile2 : S50000x1.Idx → EReal :=
  Cert.Sage.headTile (N := 50000) (K := 128) (C := 1)
    (Cert.Sage.layerTile (N := 50000) (K := 128) (C := 128) (V c main_v50) (V c main_v40) (V c main_v12)
      (V c main_v51) (V c main_v52) (V c main_v54))
    (V c main_v53) (V c main_v55)

/-- What point t writes back is block t of that array. -/
theorem flushed2_eq :
    (dat2 (F := Ideal) V c).flushed 8 t = ((cfg2.win 8).blk t).view.read (Elt Ideal) (tile2 V c) := by
  show (cfg2.win 8).cut (grid2.coords t) ((dat2 V c).after 8 t) = _
  rw [after2_8]
  unfold out2_8
  rw [View.canon_unit_zero hz2]
  simp only [View.ld_unit_zero (S := S5000x128) hz2, View.ld_unit_zero (S := S5000x1) hz2,
    View.ld_unit_zero (S := S128x128) hz2, View.ld_unit_zero (S := S1x128) hz2,
    View.ld_unit_zero (S := S128x1) hz2, View.ld_unit_zero (S := S1x1) hz2]
  funext j
  obtain ⟨p, u, rfl⟩ : ∃ (p : Fin 5000) (u : Fin 1), j = ix2 p u := ⟨j 0, j 1, eq_ix2 j⟩
  show k2_pay1 (F := Ideal) (iblk2 V c 0 t) (iblk2 V c 1 t) (iblk2 V c 2 t) (iblk2 V c 3 t) (iblk2 V c 5 t) (iblk2 V c 4 t) (iblk2 V c 6 t) (iblk2 V c 7 t) (ix2 p u)
    = tile2 V c (((cfg2.win 8).blk t).view.emb (ix2 p u))
  refine (tile2_apply (iblk2 V c 0 t) (iblk2 V c 1 t) (iblk2 V c 2 t) (iblk2 V c 3 t) (iblk2 V c 5 t) (iblk2 V c 4 t) (iblk2 V c 6 t) (iblk2 V c 7 t) p u).trans ?_
  rw [emb2_8 t p u]
  unfold tile2
  rw [Cert.Sage.headTile_apply]
  simp only [Cert.Sage.layerTile_apply, blk2_0 V c t, blk2_1 V c t, blk2_2 V c t, blk2_3 V c t, blk2_4 V c t, blk2_5 V c t,
    blk2_6 V c t, blk2_7 V c t]

end

/-- An index of the array is in point t's block iff each coordinate is in the block's range on its axis. -/
theorem mem_blk2 (t : Fin cfg2.N) (i : S50000x1.Idx) :
    i ∈ ((cfg2.win 8).blk t).view.set ↔ ∀ a : Fin 2, win2_8.index t a * S5000x1.size a ≤ (i a).val ∧ (i a).val < win2_8.index t a * S5000x1.size a + S5000x1.size a := by
  show i ∈ ((View.whole main_v56).slice (win2_8.rect t)).set ↔ _
  rw [View.set_slice_whole, Rect.mem_set_unit]
  exact Iff.rfl

/-- The ten blocks cover the array: row r is in the block of point r / 5000. -/
theorem cover2 (i : S50000x1.Idx) :
    ∃ t : Fin cfg2.N, (cfg2.win 8).flush t = true ∧ i ∈ ((cfg2.win 8).blk t).view.set := by
  have hi0 : (i 0).val < 50000 := (i 0).isLt
  have hi1 : (i 1).val < 1 := (i 1).isLt
  obtain ⟨t, ht⟩ := idx_onto2 ⟨(i 0).val / 5000, by omega⟩
  have ht' : t.val = (i 0).val / 5000 := ht
  obtain ⟨e0, e1, -⟩ := idx_facts2 t
  refine ⟨t, flush2_8 t, ?_⟩
  rw [mem_blk2]
  intro a
  match a with
  | ⟨0, _⟩ => show win2_8.index t (0 : Fin 2) * 5000 ≤ (i 0).val ∧ (i 0).val < win2_8.index t (0 : Fin 2) * 5000 + 5000; omega
  | ⟨1, _⟩ => show win2_8.index t (1 : Fin 2) * 1 ≤ (i 1).val ∧ (i 1).val < win2_8.index t (1 : Fin 2) * 1 + 1; omega

/-- The output array after the ten write-backs is the head over the layer, in their tiled forms, of the arrays the
    region found. -/
theorem final2 (V : (c : Dev nD) → (b : Ref sig .tc) → Buf (Elt Ideal) ((c : Thread nD τ).loc b)) (c : Dev nD) :
    (dat2 (F := Ideal) V c).arrAt 8 cfg2.N = tile2 V c :=
  (dat2 (F := Ideal) V c).arrAt_eq_of_cover 8 (tile2 V c) (fun t _ => flushed2_eq V c t) cover2

end Cert.KernelIdeal.Whole

end
-- ==== Proof.Stages.lean ====
/-
  The host stages the two programs share, and each program's whole result over them.

  Both programs slice the edge list into a source and a destination vector, gather the rows of the current features
  at the (wrapped) sources, scatter-add them at the destinations (the neighbour sums), count the edges arriving at
  each node and clamp the count below by one. These stages are the same terms in both programs and are named here
  once. The tiled program then runs three regions, each the tiled form of a layer (LibSageLayer.lean) of the neighbour sums,
  the features and the reciprocal column 1 / clamped count, the last with the linear head fused in; the reference
  divides by the clamped count on the host and contracts there.
-/
import proofs.«109179_j2534030704731_2_alg».proof.Proof.Gen.KernelIdeal
import proofs.«109179_j2534030704731_2_alg».proof.Proof.Gen.ReferenceIdeal
import proofs.«109179_j2534030704731_2_alg».proof.Proof.LibSageLayer
import proofs.«109179_j2534030704731_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Stages

open Cert.KernelIdeal Cert.KernelIdeal.Gen Idealize.ShloMosaic Idealize.ShloMosaic.ValueIdx Cert.Dense

abbrev Edges : Type := IVec S2x800000 32
abbrev EdgeVec : Type := IVec S800000 32
abbrev Feat : Type := FVec Ideal S50000x128 .f32
abbrev Wt : Type := FVec Ideal S128x128 .f32
abbrev Bias : Type := FVec Ideal S128 .f32
abbrev Cnt : Type := FVec Ideal S50000 .f32
abbrev Col : Type := FVec Ideal S50000x1 .f32
abbrev HeadW : Type := FVec Ideal S1x128 .f32
abbrev HeadB : Type := FVec Ideal S1 .f32

/-! ## The shared host stages -/

/-- The edges' sources and destinations: rows 0 and 1 of the edge list. -/
def srcVec (e : Edges) : EdgeVec :=
  shapeCast _ (extractStridedSlice S1x800000 ![0, 0] e slices_S2x800000_S1x800000_0_0) shapeCasts_S1x800000_S800000
def dstVec (e : Edges) : EdgeVec :=
  shapeCast _ (extractStridedSlice S1x800000 ![1, 0] e slices_S2x800000_S1x800000_1_0) shapeCasts_S1x800000_S800000

/-- The neighbour sums: the rows of h gathered at the sources (a negative source wrapped by the row count) and
    scatter-added at the destinations into zeros. -/
def agg (h : Feat) (e : Edges) : Feat :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 (dstVec e))
    (Host.gather gather_S50000x128_S800000x1_S800000x128_1_0_n_n_0_1_1128 h
      (broadcastInDim S800000x1 ![0] bcast_S800000_S800000x1_0
        (select (cmpi .slt (srcVec e) (broadcastInDim S800000 ![] bcast_S_S800000 (constantI S_ 32 0#32)))
          (addi (srcVec e) (broadcastInDim S800000 ![] bcast_S_S800000 (constantI S_ 32 50000#32))) (srcVec e))))

/-- The number of edges arriving at each node: ones scatter-added at the destinations into zeros. -/
def rawCount (e : Edges) : Cnt :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 (dstVec e))
    (broadcastInDim S800000 ![] bcast_S_S800000 (constant (F := Ideal) S_ .f32 0x3F800000#32))

/-- A count clamped below by one. -/
def clampV (r : Cnt) : Cnt :=
  maximumf r (broadcastInDim S50000 ![] bcast_S_S50000 (constant (F := Ideal) S_ .f32 0x3F800000#32))

/-- The tiled program's reciprocal column of a count: one over the clamped count, as a column. -/
def invV (r : Cnt) : Col :=
  broadcastInDim S50000x1 ![0] bcast_S50000_S50000x1_0
    (Host.divf (broadcastInDim S50000 ![] bcast_S_S50000 (constant (F := Ideal) S_ .f32 0x3F800000#32)) (clampV r))

/-- The clamped count and the reciprocal column of the edge list. -/
def clampedCount (e : Edges) : Cnt := clampV (rawCount e)
def invCol (e : Edges) : Col := invV (rawCount e)

/-! ## The tiled program's layers and result -/

/-- One region, of the neighbour sums and the reciprocal column it finds: the tiled form of the layer, of the weights
    transposed on the host and the bias as a one-row matrix. -/
def tLayerV (s : Feat) (inv : Col) (h : Feat) (wl : Wt) (b : Bias) (wr : Wt) : Feat :=
  Cert.Sage.layerTile (N := 50000) (K := 128) (C := 128) s h inv
    (transpose S128x128 [1, 0] wl transposes_S128x128_S128x128_1_0)
    (transpose S128x128 [1, 0] wr transposes_S128x128_S128x128_1_0)
    (shapeCast S1x128 b shapeCasts_S128_S1x128)

/-- One region, of the features and the edge list. -/
def tLayer (h : Feat) (e : Edges) (wl : Wt) (b : Bias) (wr : Wt) : Feat :=
  tLayerV (agg h e) (invCol e) h wl b wr

/-- The last region: the head fused onto the third layer. -/
def tHead (a : Feat) (wf : HeadW) (bf : HeadB) : Col :=
  Cert.Sage.headTile (N := 50000) (K := 128) (C := 1) a
    (transpose S128x1 [1, 0] wf transposes_S1x128_S128x1_1_0) (shapeCast S1x1 bf shapeCasts_S1_S1x1)

/-! ## The reference's layers and result -/

/-- One layer of the reference, of the neighbour sums and the clamped count it computed, as its host operations. -/
def rLayerV (s : Feat) (cc : Cnt) (h : Feat) (wl : Wt) (b : Bias) (wr : Wt) : Feat :=
  maximumf
    (addf
      (addf
        (Host.dotGeneral Cert.ReferenceIdeal.dot_S50000x128_S128x128_S50000x128_1_0_0_1_n_n none
          (Host.divf s
            (broadcastInDim S50000x128 ![0, 1] Cert.ReferenceIdeal.Gen.bcast_S50000x1_S50000x128_0_1
              (broadcastInDim S50000x1 ![0] bcast_S50000_S50000x1_0 cc)))
          (transpose S128x128 [1, 0] wl transposes_S128x128_S128x128_1_0))
        (broadcastInDim S50000x128 ![0, 1] Cert.ReferenceIdeal.Gen.bcast_S1x128_S50000x128_0_1
          (broadcastInDim S1x128 ![1] Cert.ReferenceIdeal.Gen.bcast_S128_S1x128_1 b)))
      (Host.dotGeneral Cert.ReferenceIdeal.dot_S50000x128_S128x128_S50000x128_1_0_0_1_n_n none h
        (transpose S128x128 [1, 0] wr transposes_S128x128_S128x128_1_0)))
    (broadcastInDim S50000x128 ![] bcast_S_S50000x128 (constant (F := Ideal) S_ .f32 0x00000000#32))

/-- One layer of the reference, of the features and the edge list. -/
def rLayer (h : Feat) (e : Edges) (wl : Wt) (b : Bias) (wr : Wt) : Feat :=
  rLayerV (agg h e) (clampedCount e) h wl b wr

/-- The reference's head, as its host operations. -/
def rHead (a : Feat) (wf : HeadW) (bf : HeadB) : Col :=
  addf
    (Host.dotGeneral Cert.ReferenceIdeal.dot_S50000x128_S128x1_S50000x1_1_0_0_1_n_n none a
      (transpose S128x1 [1, 0] wf transposes_S1x128_S128x1_1_0))
    (broadcastInDim S50000x1 ![0, 1] Cert.ReferenceIdeal.Gen.bcast_S1x1_S50000x1_0_1 (broadcastInDim S1x1 ![1] Cert.ReferenceIdeal.Gen.bcast_S1_S1x1_1 bf))

/-- The tiled program's whole result and the reference's, from the same arguments. -/
def tOut (x : Feat) (e : Edges) (wl0 : Wt) (b0 : Bias) (wr0 wl1 : Wt) (b1 : Bias) (wr1 wl2 : Wt) (b2 : Bias) (wr2 : Wt)
    (wf : HeadW) (bf : HeadB) : Col :=
  tHead (tLayer (tLayer (tLayer x e wl0 b0 wr0) e wl1 b1 wr1) e wl2 b2 wr2) wf bf
def rOut (x : Feat) (e : Edges) (wl0 : Wt) (b0 : Bias) (wr0 wl1 : Wt) (b1 : Bias) (wr1 wl2 : Wt) (b2 : Bias) (wr2 : Wt)
    (wf : HeadW) (bf : HeadB) : Col :=
  rHead (rLayer (rLayer (rLayer x e wl0 b0 wr0) e wl1 b1 wr1) e wl2 b2 wr2) wf bf

end Cert.Stages

end
-- ==== Proof.KernelValue.lean ====
/-
  What the buffers hold at each boundary of the idealized kernel's @main, read back to the arguments.

  A host stretch applies its operations to the contents it starts from; a region replaces its output array by its
  layer of the arrays it finds (Region0 … Region2) and leaves every other buffer alone. Walking the six boundaries:
  the first stretch computes the edge vectors, the reciprocal column, the first neighbour sums and the first layer's
  transposed weights from the arguments; each later stretch gathers and scatters the previous region's output and
  transposes the next layer's weights; the edge vectors, the reciprocal column and the untouched arguments pass
  through. The result buffer therefore ends holding the head over three nested layers of the arguments.
-/
import proofs.«109179_j2534030704731_2_alg».proof.Proof.Gen.KernelIdeal.Frame
import proofs.«109179_j2534030704731_2_alg».proof.Proof.Region0
import proofs.«109179_j2534030704731_2_alg».proof.Proof.Region1
import proofs.«109179_j2534030704731_2_alg».proof.Proof.Region2
import proofs.«109179_j2534030704731_2_alg».proof.Proof.Stages
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## After the first stretch -/

theorem v1_v22 : V1 m ρ c main_v22 = Cert.Stages.agg (m ((c : Thread nD τ).loc main_arg0)) (m ((c : Thread nD τ).loc main_arg1)) := by
  show StableHlo.after hostOps0 (W0 m ρ c) (Proc.devRef .tc main_v22) = _
  after_results_simp
  all_goals rfl

theorem v1_v12 : V1 m ρ c main_v12 = (Cert.Stages.invCol (m ((c : Thread nD τ).loc main_arg1))) := by
  show StableHlo.after hostOps0 (W0 m ρ c) (Proc.devRef .tc main_v12) = _
  after_results_simp
  all_goals rfl

theorem v1_arg0 : V1 m ρ c main_arg0 = (m ((c : Thread nD τ).loc main_arg0)) := by
  show StableHlo.after hostOps0 (W0 m ρ c) (Proc.devRef .tc main_arg0) = _
  after_results_simp
  all_goals rfl

theorem v1_v23 : V1 m ρ c main_v23 = (transpose S128x128 [1, 0] (m ((c : Thread nD τ).loc main_arg2)) transposes_S128x128_S128x128_1_0) := by
  show StableHlo.after hostOps0 (W0 m ρ c) (Proc.devRef .tc main_v23) = _
  after_results_simp
  all_goals rfl

theorem v1_v24 : V1 m ρ c main_v24 = (transpose S128x128 [1, 0] (m ((c : Thread nD τ).loc main_arg4)) transposes_S128x128_S128x128_1_0) := by
  show StableHlo.after hostOps0 (W0 m ρ c) (Proc.devRef .tc main_v24) = _
  after_results_simp
  all_goals rfl

theorem v1_v25 : V1 m ρ c main_v25 = (shapeCast S1x128 (m ((c : Thread nD τ).loc main_arg3)) shapeCasts_S128_S1x128) := by
  show StableHlo.after hostOps0 (W0 m ρ c) (Proc.devRef .tc main_v25) = _
  after_results_simp
  all_goals rfl

theorem w1_v1 : W1 m ρ c (Proc.devRef .tc main_v1) = (Cert.Stages.srcVec (m ((c : Thread nD τ).loc main_arg1))) := by
  show StableHlo.after hostOps0 (W0 m ρ c) (Proc.devRef .tc main_v1) = _
  after_results_simp
  all_goals rfl

theorem w1_v3 : W1 m ρ c (Proc.devRef .tc main_v3) = (Cert.Stages.dstVec (m ((c : Thread nD τ).loc main_arg1))) := by
  show StableHlo.after hostOps0 (W0 m ρ c) (Proc.devRef .tc main_v3) = _
  after_results_simp
  all_goals rfl

theorem w1_arg5 : W1 m ρ c (Proc.devRef .tc main_arg5) = (m ((c : Thread nD τ).loc main_arg5)) := by
  show StableHlo.after hostOps0 (W0 m ρ c) (Proc.devRef .tc main_arg5) = _
  after_results_simp
  all_goals rfl

theorem w1_arg6 : W1 m ρ c (Proc.devRef .tc main_arg6) = (m ((c : Thread nD τ).loc main_arg6)) := by
  show StableHlo.after hostOps0 (W0 m ρ c) (Proc.devRef .tc main_arg6) = _
  after_results_simp
  all_goals rfl

theorem w1_arg7 : W1 m ρ c (Proc.devRef .tc main_arg7) = (m ((c : Thread nD τ).loc main_arg7)) := by
  show StableHlo.after hostOps0 (W0 m ρ c) (Proc.devRef .tc main_arg7) = _
  after_results_simp
  all_goals rfl

theorem w1_arg8 : W1 m ρ c (Proc.devRef .tc main_arg8) = (m ((c : Thread nD τ).loc main_arg8)) := by
  show StableHlo.after hostOps0 (W0 m ρ c) (Proc.devRef .tc main_arg8) = _
  after_results_simp
  all_goals rfl

theorem w1_arg9 : W1 m ρ c (Proc.devRef .tc main_arg9) = (m ((c : Thread nD τ).loc main_arg9)) := by
  show StableHlo.after hostOps0 (W0 m ρ c) (Proc.devRef .tc main_arg9) = _
  after_results_simp
  all_goals rfl

theorem w1_arg10 : W1 m ρ c (Proc.devRef .tc main_arg10) = (m ((c : Thread nD τ).loc main_arg10)) := by
  show StableHlo.after hostOps0 (W0 m ρ c) (Proc.devRef .tc main_arg10) = _
  after_results_simp
  all_goals rfl

theorem w1_arg11 : W1 m ρ c (Proc.devRef .tc main_arg11) = (m ((c : Thread nD τ).loc main_arg11)) := by
  show StableHlo.after hostOps0 (W0 m ρ c) (Proc.devRef .tc main_arg11) = _
  after_results_simp
  all_goals rfl

theorem w1_arg12 : W1 m ρ c (Proc.devRef .tc main_arg12) = (m ((c : Thread nD τ).loc main_arg12)) := by
  show StableHlo.after hostOps0 (W0 m ρ c) (Proc.devRef .tc main_arg12) = _
  after_results_simp
  all_goals rfl

/-- The first region's output array: the first layer. -/
theorem layer1 : tile0 (V1 m ρ) c = (Cert.Stages.tLayer (m ((c : Thread nD τ).loc main_arg0)) (m ((c : Thread nD τ).loc main_arg1)) (m ((c : Thread nD τ).loc main_arg2)) (m ((c : Thread nD τ).loc main_arg3)) (m ((c : Thread nD τ).loc main_arg4))) := by
  unfold tile0
  rw [v1_v22, v1_v12, v1_arg0, v1_v23, v1_v24, v1_v25]
  rfl

/-! ## After the first region -/

theorem w2_v26 : W2 m ρ c (Proc.devRef .tc main_v26) = (Cert.Stages.tLayer (m ((c : Thread nD τ).loc main_arg0)) (m ((c : Thread nD τ).loc main_arg1)) (m ((c : Thread nD τ).loc main_arg2)) (m ((c : Thread nD τ).loc main_arg3)) (m ((c : Thread nD τ).loc main_arg4))) :=
  (W2_arr m ρ c 6).trans ((final0 (V1 m ρ) c).trans (layer1 m ρ c))
theorem w2_v12 : W2 m ρ c (Proc.devRef .tc main_v12) = (Cert.Stages.invCol (m ((c : Thread nD τ).loc main_arg1))) :=
  (W2_arr m ρ c 1).trans (((dat0 (V1 m ρ) c).arrAt_in 1 rfl _).trans ((A_eq0 (V1 m ρ) c 1).trans (v1_v12 m ρ c)))
theorem w2_v1 : W2 m ρ c (Proc.devRef .tc main_v1) = (Cert.Stages.srcVec (m ((c : Thread nD τ).loc main_arg1))) := (W2_of_ne m ρ c main_v1 (by decide)).trans (w1_v1 m ρ c)
theorem w2_v3 : W2 m ρ c (Proc.devRef .tc main_v3) = (Cert.Stages.dstVec (m ((c : Thread nD τ).loc main_arg1))) := (W2_of_ne m ρ c main_v3 (by decide)).trans (w1_v3 m ρ c)

theorem w2_arg5 : W2 m ρ c (Proc.devRef .tc main_arg5) = (m ((c : Thread nD τ).loc main_arg5)) := (W2_of_ne m ρ c main_arg5 (by decide)).trans (w1_arg5 m ρ c)

theorem w2_arg6 : W2 m ρ c (Proc.devRef .tc main_arg6) = (m ((c : Thread nD τ).loc main_arg6)) := (W2_of_ne m ρ c main_arg6 (by decide)).trans (w1_arg6 m ρ c)

theorem w2_arg7 : W2 m ρ c (Proc.devRef .tc main_arg7) = (m ((c : Thread nD τ).loc main_arg7)) := (W2_of_ne m ρ c main_arg7 (by decide)).trans (w1_arg7 m ρ c)

theorem w2_arg8 : W2 m ρ c (Proc.devRef .tc main_arg8) = (m ((c : Thread nD τ).loc main_arg8)) := (W2_of_ne m ρ c main_arg8 (by decide)).trans (w1_arg8 m ρ c)

theorem w2_arg9 : W2 m ρ c (Proc.devRef .tc main_arg9) = (m ((c : Thread nD τ).loc main_arg9)) := (W2_of_ne m ρ c main_arg9 (by decide)).trans (w1_arg9 m ρ c)

theorem w2_arg10 : W2 m ρ c (Proc.devRef .tc main_arg10) = (m ((c : Thread nD τ).loc main_arg10)) := (W2_of_ne m ρ c main_arg10 (by decide)).trans (w1_arg10 m ρ c)

theorem w2_arg11 : W2 m ρ c (Proc.devRef .tc main_arg11) = (m ((c : Thread nD τ).loc main_arg11)) := (W2_of_ne m ρ c main_arg11 (by decide)).trans (w1_arg11 m ρ c)

theorem w2_arg12 : W2 m ρ c (Proc.devRef .tc main_arg12) = (m ((c : Thread nD τ).loc main_arg12)) := (W2_of_ne m ρ c main_arg12 (by decide)).trans (w1_arg12 m ρ c)

/-! ## After the second stretch -/

theorem v3_v36 : V3 m ρ c main_v36 = Cert.Stages.agg (Cert.Stages.tLayer (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  show StableHlo.after hostOps1 (W2 m ρ c) (Proc.devRef .tc main_v36) = _
  after_results_simp
  rw [w2_v1, w2_v3, w2_v26]
  all_goals rfl

theorem v3_v12 : V3 m ρ c main_v12 = (Cert.Stages.invCol (m ((c : Thread nD τ).loc main_arg1))) := by
  show StableHlo.after hostOps1 (W2 m ρ c) (Proc.devRef .tc main_v12) = _
  after_results_simp
  rw [w2_v12]
  all_goals rfl

theorem v3_v26 : V3 m ρ c main_v26 = (Cert.Stages.tLayer (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps1 (W2 m ρ c) (Proc.devRef .tc main_v26) = _
  after_results_simp
  rw [w2_v26]
  all_goals rfl

theorem v3_v37 : V3 m ρ c main_v37 = (transpose S128x128 [1, 0] (m ((c : Thread nD τ).loc main_arg5)) transposes_S128x128_S128x128_1_0) := by
  show StableHlo.after hostOps1 (W2 m ρ c) (Proc.devRef .tc main_v37) = _
  after_results_simp
  rw [w2_arg5]
  all_goals rfl

theorem v3_v38 : V3 m ρ c main_v38 = (transpose S128x128 [1, 0] (m ((c : Thread nD τ).loc main_arg7)) transposes_S128x128_S128x128_1_0) := by
  show StableHlo.after hostOps1 (W2 m ρ c) (Proc.devRef .tc main_v38) = _
  after_results_simp
  rw [w2_arg7]
  all_goals rfl

theorem v3_v39 : V3 m ρ c main_v39 = (shapeCast S1x128 (m ((c : Thread nD τ).loc main_arg6)) shapeCasts_S128_S1x128) := by
  show StableHlo.after hostOps1 (W2 m ρ c) (Proc.devRef .tc main_v39) = _
  after_results_simp
  rw [w2_arg6]
  all_goals rfl

theorem w3_v1 : W3 m ρ c (Proc.devRef .tc main_v1) = (Cert.Stages.srcVec (m ((c : Thread nD τ).loc main_arg1))) := by
  show StableHlo.after hostOps1 (W2 m ρ c) (Proc.devRef .tc main_v1) = _
  after_results_simp
  rw [w2_v1]
  all_goals rfl

theorem w3_v3 : W3 m ρ c (Proc.devRef .tc main_v3) = (Cert.Stages.dstVec (m ((c : Thread nD τ).loc main_arg1))) := by
  show StableHlo.after hostOps1 (W2 m ρ c) (Proc.devRef .tc main_v3) = _
  after_results_simp
  rw [w2_v3]
  all_goals rfl

theorem w3_arg8 : W3 m ρ c (Proc.devRef .tc main_arg8) = (m ((c : Thread nD τ).loc main_arg8)) := by
  show StableHlo.after hostOps1 (W2 m ρ c) (Proc.devRef .tc main_arg8) = _
  after_results_simp
  rw [w2_arg8]
  all_goals rfl

theorem w3_arg9 : W3 m ρ c (Proc.devRef .tc main_arg9) = (m ((c : Thread nD τ).loc main_arg9)) := by
  show StableHlo.after hostOps1 (W2 m ρ c) (Proc.devRef .tc main_arg9) = _
  after_results_simp
  rw [w2_arg9]
  all_goals rfl

theorem w3_arg10 : W3 m ρ c (Proc.devRef .tc main_arg10) = (m ((c : Thread nD τ).loc main_arg10)) := by
  show StableHlo.after hostOps1 (W2 m ρ c) (Proc.devRef .tc main_arg10) = _
  after_results_simp
  rw [w2_arg10]
  all_goals rfl

theorem w3_arg11 : W3 m ρ c (Proc.devRef .tc main_arg11) = (m ((c : Thread nD τ).loc main_arg11)) := by
  show StableHlo.after hostOps1 (W2 m ρ c) (Proc.devRef .tc main_arg11) = _
  after_results_simp
  rw [w2_arg11]
  all_goals rfl

theorem w3_arg12 : W3 m ρ c (Proc.devRef .tc main_arg12) = (m ((c : Thread nD τ).loc main_arg12)) := by
  show StableHlo.after hostOps1 (W2 m ρ c) (Proc.devRef .tc main_arg12) = _
  after_results_simp
  rw [w2_arg12]
  all_goals rfl

/-- The second region's output array: the second layer. -/
theorem layer2 : tile1 (V3 m ρ) c = (Cert.Stages.tLayer (Cert.Stages.tLayer (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) := by
  unfold tile1
  rw [v3_v36, v3_v12, v3_v26, v3_v37, v3_v38, v3_v39]
  rfl

/-! ## After the second region -/

theorem w4_v40 : W4 m ρ c (Proc.devRef .tc main_v40) = (Cert.Stages.tLayer (Cert.Stages.tLayer (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) :=
  (W4_arr m ρ c 6).trans ((final1 (V3 m ρ) c).trans (layer2 m ρ c))
theorem w4_v12 : W4 m ρ c (Proc.devRef .tc main_v12) = (Cert.Stages.invCol (m ((c : Thread nD τ).loc main_arg1))) :=
  (W4_arr m ρ c 1).trans (((dat1 (V3 m ρ) c).arrAt_in 1 rfl _).trans ((A_eq1 (V3 m ρ) c 1).trans (v3_v12 m ρ c)))
theorem w4_v1 : W4 m ρ c (Proc.devRef .tc main_v1) = (Cert.Stages.srcVec (m ((c : Thread nD τ).loc main_arg1))) := (W4_of_ne m ρ c main_v1 (by decide)).trans (w3_v1 m ρ c)
theorem w4_v3 : W4 m ρ c (Proc.devRef .tc main_v3) = (Cert.Stages.dstVec (m ((c : Thread nD τ).loc main_arg1))) := (W4_of_ne m ρ c main_v3 (by decide)).trans (w3_v3 m ρ c)

theorem w4_arg8 : W4 m ρ c (Proc.devRef .tc main_arg8) = (m ((c : Thread nD τ).loc main_arg8)) := (W4_of_ne m ρ c main_arg8 (by decide)).trans (w3_arg8 m ρ c)

theorem w4_arg9 : W4 m ρ c (Proc.devRef .tc main_arg9) = (m ((c : Thread nD τ).loc main_arg9)) := (W4_of_ne m ρ c main_arg9 (by decide)).trans (w3_arg9 m ρ c)

theorem w4_arg10 : W4 m ρ c (Proc.devRef .tc main_arg10) = (m ((c : Thread nD τ).loc main_arg10)) := (W4_of_ne m ρ c main_arg10 (by decide)).trans (w3_arg10 m ρ c)

theorem w4_arg11 : W4 m ρ c (Proc.devRef .tc main_arg11) = (m ((c : Thread nD τ).loc main_arg11)) := (W4_of_ne m ρ c main_arg11 (by decide)).trans (w3_arg11 m ρ c)

theorem w4_arg12 : W4 m ρ c (Proc.devRef .tc main_arg12) = (m ((c : Thread nD τ).loc main_arg12)) := (W4_of_ne m ρ c main_arg12 (by decide)).trans (w3_arg12 m ρ c)

/-! ## After the third stretch -/

theorem v5_v50 : V5 m ρ c main_v50 = Cert.Stages.agg (Cert.Stages.tLayer (Cert.Stages.tLayer (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg1)) := by
  show StableHlo.after hostOps2 (W4 m ρ c) (Proc.devRef .tc main_v50) = _
  after_results_simp
  rw [w4_v1, w4_v3, w4_v40]
  all_goals rfl

theorem v5_v12 : V5 m ρ c main_v12 = (Cert.Stages.invCol (m ((c : Thread nD τ).loc main_arg1))) := by
  show StableHlo.after hostOps2 (W4 m ρ c) (Proc.devRef .tc main_v12) = _
  after_results_simp
  rw [w4_v12]
  all_goals rfl

theorem v5_v40 : V5 m ρ c main_v40 = (Cert.Stages.tLayer (Cert.Stages.tLayer (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) := by
  show StableHlo.after hostOps2 (W4 m ρ c) (Proc.devRef .tc main_v40) = _
  after_results_simp
  rw [w4_v40]
  all_goals rfl

theorem v5_v51 : V5 m ρ c main_v51 = (transpose S128x128 [1, 0] (m ((c : Thread nD τ).loc main_arg8)) transposes_S128x128_S128x128_1_0) := by
  show StableHlo.after hostOps2 (W4 m ρ c) (Proc.devRef .tc main_v51) = _
  after_results_simp
  rw [w4_arg8]
  all_goals rfl

theorem v5_v52 : V5 m ρ c main_v52 = (transpose S128x128 [1, 0] (m ((c : Thread nD τ).loc main_arg10)) transposes_S128x128_S128x128_1_0) := by
  show StableHlo.after hostOps2 (W4 m ρ c) (Proc.devRef .tc main_v52) = _
  after_results_simp
  rw [w4_arg10]
  all_goals rfl

theorem v5_v54 : V5 m ρ c main_v54 = (shapeCast S1x128 (m ((c : Thread nD τ).loc main_arg9)) shapeCasts_S128_S1x128) := by
  show StableHlo.after hostOps2 (W4 m ρ c) (Proc.devRef .tc main_v54) = _
  after_results_simp
  rw [w4_arg9]
  all_goals rfl

theorem v5_v53 : V5 m ρ c main_v53 = (transpose S128x1 [1, 0] (m ((c : Thread nD τ).loc main_arg11)) transposes_S1x128_S128x1_1_0) := by
  show StableHlo.after hostOps2 (W4 m ρ c) (Proc.devRef .tc main_v53) = _
  after_results_simp
  rw [w4_arg11]
  all_goals rfl

theorem v5_v55 : V5 m ρ c main_v55 = (shapeCast S1x1 (m ((c : Thread nD τ).loc main_arg12)) shapeCasts_S1_S1x1) := by
  show StableHlo.after hostOps2 (W4 m ρ c) (Proc.devRef .tc main_v55) = _
  after_results_simp
  rw [w4_arg12]
  all_goals rfl

/-! ## The result -/

/-- The third region's output array: the head over the third layer. -/
theorem layer3 : tile2 (V5 m ρ) c = Cert.Stages.tOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold tile2
  rw [v5_v50, v5_v12, v5_v40, v5_v51, v5_v52, v5_v54, v5_v53, v5_v55]
  rfl

/-- The result buffer at the last boundary holds the tiled program's whole result of the arguments. -/
theorem result_eq : W6 m ρ c (Proc.devRef .tc main_v56) = Cert.Stages.tOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W6_arr m ρ c 8).trans ((final2 (V5 m ρ) c).trans (layer3 m ρ c))

end Cert.KernelIdeal.Whole

end
-- ==== Proof.RefValue.lean ====
/-
  The reference's result, over the shared stages.

  The reference's @main is a straight line of host operations; its run ends with the result buffer at the
  operations' composed term of the arguments. That term is, by unfolding the names, the head over three nested
  layers in the reference's arrangement (Stages.lean): the same gathers, scatter-adds and clamped count, a host
  division by the count, host contractions with the transposed weights, the bias, and the rectifier.
-/
import proofs.«109179_j2534030704731_2_alg».proof.Proof.Gen.ReferenceIdeal.Run
import proofs.«109179_j2534030704731_2_alg».proof.Proof.Stages

set_option maxRecDepth 16384

noncomputable section

namespace Cert.ReferenceIdeal.Whole

open Cert.ReferenceIdeal Cert.ReferenceIdeal.Gen Cert.ReferenceIdeal.Value
open Idealize.ShloMosaic Idealize.ShloMosaic.TcCoe Idealize.SL.Sem

/-- The run's composed result term is the reference's whole result of the arguments. -/
theorem result_eq (m : (ℓ : Loc nD τ sig) → Buf (Elt Ideal) ℓ) (c : Dev nD) :
    res_main_v92 (F := Ideal) m c
      = Cert.Stages.rOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold res_main_v92
  rfl

end Cert.ReferenceIdeal.Whole

end
-- ==== Proof.Bridge.lean ====
/-
  The bridge: layer by layer the tiled program's array and the reference's are one array, so the whole results agree.

  Every fact here is about a layer of ARBITRARY neighbour sums s and an ARBITRARY raw count r: the reference's layer
  read entry by entry is the layer in the reference's arrangement (its contraction is the plain sum, its two
  broadcasts of the clamped count read the count of the entry's row, its bias broadcasts read the bias of the
  entry's column); the region's layer is the tiled arrangement by definition; LibSageLayer.lean's law joins them, using only
  that the clamped count is a maximum with one (so not zero) and that the word 0x3F800000 is one. The gathers and
  scatter-adds enter only at the end, substituted for s and r: nothing here looks inside them.
-/
import proofs.«109179_j2534030704731_2_alg».proof.Proof.Stages
import Idealize.ShloMosaic.Lib.IdealHost

set_option maxRecDepth 16384

noncomputable section

namespace Cert.Stages

open Cert.KernelIdeal Cert.KernelIdeal.Gen Idealize.ShloMosaic Idealize.ShloMosaic.ValueIdx Cert.Dense

/-! ## The clamped count and its reciprocal -/

/-- The word 0x3F800000 denotes one. -/
theorem one_word : Ideal.ofBits .f32 0x3F800000#32 = 1 := by
  simp [Ideal.ofBits, Ideal.ieee, -EReal.coe_mul]; norm_num

/-- The splat of that word reads one at every index. -/
theorem one_splat (i : S50000.Idx) :
    broadcastInDim S50000 ![] bcast_S_S50000 (constant (F := Ideal) S_ .f32 0x3F800000#32) i = 1 :=
  (broadcastInDim_scalar_apply bcast_S_S50000 (constant (F := Ideal) S_ .f32 0x3F800000#32) i).trans one_word

/-- A clamped count at a node is the maximum of the count there and one. -/
theorem clampV_apply (r : Cnt) (p : Fin 50000) : clampV r (ix1 p) = max (r (ix1 p)) 1 :=
  congrArg (max (r (ix1 p))) (one_splat (ix1 p))

/-- A clamped count is nowhere zero. -/
theorem clampV_ne_zero (r : Cnt) (p : Fin 50000) : clampV r (ix1 p) ≠ 0 := by
  rw [clampV_apply]
  exact Cert.Sage.clamp_ne_zero _

/-- The reciprocal column at row p is one over the clamped count at p. -/
theorem invV_apply (r : Cnt) (p : Fin 50000) :
    invV r (ix2 p (0 : Fin 1)) = Ideal.div 1 (clampV r (ix1 p)) := by
  unfold invV
  refine (Cert.Lib.Keepdims.broadcastInDim_a_a1_apply _ bcast_S50000_S50000x1_0 p (0 : Fin 1)).trans ?_
  exact congrArg (fun z => Ideal.div z (clampV r (ix1 p))) (one_splat (ix1 p))

/-! ## One layer -/

/-- The reference's layer, read entry by entry, is the layer in the reference's arrangement. -/
theorem rLayerV_eq (s : Feat) (cc : Cnt) (h : Feat) (wl : Wt) (b : Bias) (wr : Wt) :
    rLayerV s cc h wl b wr
      = Cert.Sage.layerRef (N := 50000) (K := 128) (C := 128) s h cc
          (transpose S128x128 [1, 0] wl transposes_S128x128_S128x128_1_0)
          (transpose S128x128 [1, 0] wr transposes_S128x128_S128x128_1_0) b := by
  funext i
  obtain ⟨p, q, rfl⟩ : ∃ (p : Fin 50000) (q : Fin 128), i = ix2 p q := ⟨i 0, i 1, eq_ix2 i⟩
  rw [Cert.Sage.layerRef_apply]
  unfold rLayerV
  refine (Cert.Dense.hostRelu_apply 50000 128 bcast_S_S50000x128 _ (ix2 p q)).trans ?_
  refine congrArg (fun z => max z 0) ?_
  refine congrArg₂ (· + ·) ?_ (Cert.Dense.hostProduct_apply 50000 128 128 none h _ p q)
  refine (Cert.Dense.hostAddRow_apply 50000 128 Cert.ReferenceIdeal.Gen.bcast_S128_S1x128_1 Cert.ReferenceIdeal.Gen.bcast_S1x128_S50000x128_0_1 _ b p q).trans ?_
  refine congrArg (fun z => z + b (ix1 q)) ?_
  refine (Cert.Dense.hostProduct_apply 50000 128 128 none _ _ p q).trans ?_
  refine Finset.sum_congr rfl fun k _ => ?_
  refine congrArg (fun z => z * transpose S128x128 [1, 0] wl transposes_S128x128_S128x128_1_0 (ix2 k q)) ?_
  refine congrArg (Ideal.div (s (ix2 p k))) ?_
  exact (Cert.Lib.Keepdims.broadcastInDim_a1_ab_apply _ Cert.ReferenceIdeal.Gen.bcast_S50000x1_S50000x128_0_1 p k).trans
    (Cert.Lib.Keepdims.broadcastInDim_a_a1_apply _ bcast_S50000_S50000x1_0 p (0 : Fin 1))

/-- A region's layer of the reciprocal column is the reference's layer of the clamped count, for any neighbour sums
    and any raw count. -/
theorem tLayerV_eq_rLayerV (s : Feat) (r : Cnt) (h : Feat) (wl : Wt) (b : Bias) (wr : Wt) :
    tLayerV s (invV r) h wl b wr = rLayerV s (clampV r) h wl b wr := by
  rw [rLayerV_eq]
  unfold tLayerV
  exact Cert.Sage.layerTile_eq_layerRef s h (clampV r) (invV r) _ _ b _
    (clampV_ne_zero r) (invV_apply r)
    (fun q => Cert.LibLreluRows.rowCast_apply shapeCasts_S128_S1x128 b q)

/-- A region's layer is the reference's layer: the neighbour sums and the raw count of the edge list substituted. -/
theorem tLayer_eq_rLayer (h : Feat) (e : Edges) (wl : Wt) (b : Bias) (wr : Wt) :
    tLayer h e wl b wr = rLayer h e wl b wr :=
  tLayerV_eq_rLayerV (agg h e) (rawCount e) h wl b wr

/-! ## The head -/

/-- The reference's head, read entry by entry, is the head in the reference's arrangement. -/
theorem rHead_eq (a : Feat) (wf : HeadW) (bf : HeadB) :
    rHead a wf bf = Cert.Sage.headRef (N := 50000) (K := 128) (C := 1) a
      (transpose S128x1 [1, 0] wf transposes_S1x128_S128x1_1_0) bf := by
  funext i
  obtain ⟨p, u, rfl⟩ : ∃ (p : Fin 50000) (u : Fin 1), i = ix2 p u := ⟨i 0, i 1, eq_ix2 i⟩
  rw [Cert.Sage.headRef_apply]
  unfold rHead
  refine (Cert.Dense.hostAddRow_apply 50000 1 Cert.ReferenceIdeal.Gen.bcast_S1_S1x1_1 Cert.ReferenceIdeal.Gen.bcast_S1x1_S50000x1_0_1 _ bf p u).trans ?_
  exact congrArg (fun z => z + bf (ix1 u)) (Cert.Dense.hostProduct_apply 50000 128 1 none a _ p u)

/-- The fused head is the reference's head. -/
theorem tHead_eq_rHead (a : Feat) (wf : HeadW) (bf : HeadB) : tHead a wf bf = rHead a wf bf := by
  rw [rHead_eq]
  unfold tHead
  exact Cert.Sage.headTile_eq_headRef a _ bf _ (fun u => Cert.LibLreluRows.rowCast_apply shapeCasts_S1_S1x1 bf u)

/-! ## The whole results -/

/-- The two whole results are one array. -/
theorem tOut_eq_rOut (x : Feat) (e : Edges) (wl0 : Wt) (b0 : Bias) (wr0 wl1 : Wt) (b1 : Bias) (wr1 wl2 : Wt) (b2 : Bias)
    (wr2 : Wt) (wf : HeadW) (bf : HeadB) :
    tOut x e wl0 b0 wr0 wl1 b1 wr1 wl2 b2 wr2 wf bf = rOut x e wl0 b0 wr0 wl1 b1 wr1 wl2 b2 wr2 wf bf := by
  unfold tOut rOut
  rw [tLayer_eq_rLayer, tLayer_eq_rLayer, tLayer_eq_rLayer, tHead_eq_rHead]

end Cert.Stages

end
-- ==== Proof.lean ====
/-
  A three-layer mean-aggregating graph convolution with a linear head: the tiled program against its reference, on
  the extended reals.

  Both programs gather the node features along the edges, sum them at the destinations and count the incoming edges
  on the host. The tiled program then computes each layer in a region — the neighbour sums times the reciprocal of
  the clamped count, projected, plus the node's own projection, plus the bias, rectified; the last region also
  applies the head — while the reference divides by the clamped count, contracts and adds on the host. Entry by
  entry the two layers differ by s · (1 / c) against s / c, equal for every extended real s because c = max(count, 1)
  is not zero, and by the order of a three-term sum. Nothing is asked to be finite, so the precondition is not used.

  The frames of the two tiled programs are the generated ones; the reference's frame is its generated run with the
  result dropped. The tiled program's result is read off its run (KernelRun, Region0 … Region2, KernelValue), the
  reference's off its generated run (RefValue), and Bridge joins them.
-/
import proofs.«109179_j2534030704731_2_alg».proof.Defs
import proofs.«109179_j2534030704731_2_alg».proof.Proof.Gen.Kernel
import proofs.«109179_j2534030704731_2_alg».proof.Proof.Gen.Kernel.Frame
import proofs.«109179_j2534030704731_2_alg».proof.Proof.Gen.KernelIdeal
import proofs.«109179_j2534030704731_2_alg».proof.Proof.Gen.KernelIdeal.Frame
import proofs.«109179_j2534030704731_2_alg».proof.Proof.Gen.ReferenceIdeal
import proofs.«109179_j2534030704731_2_alg».proof.Proof.Gen.Pre_finite_inputs
import proofs.«109179_j2534030704731_2_alg».proof.Proof.Gen.ReferenceIdeal.Run
import proofs.«109179_j2534030704731_2_alg».proof.Proof.KernelRun
import proofs.«109179_j2534030704731_2_alg».proof.Proof.KernelValue
import proofs.«109179_j2534030704731_2_alg».proof.Proof.RefValue
import proofs.«109179_j2534030704731_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result at one array: the tiled program's whole result of the arguments. -/
theorem algebraic : Cert.algebraic_KernelIdeal_ReferenceIdeal := by
  intro m ρ m' ρ' _ hagree
  refine ⟨fun c => Cert.Stages.tOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Whole.result_eq m ρ c), (h c).2⟩)
      (Cert.KernelIdeal.Whole.run_main (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Whole.result_eq m' c, h0, h1, h2, h3, h4, h5, h6, h7, h8, h9, h10, h11, h12]
    exact (Cert.Stages.tOut_eq_rOut _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
